-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg10 : FVec F S128x64 .f32) (main_arg11 : FVec F S128x64 .f32) (main_arg12 : FVec F S64 .f32) (main_v33 : IVec S_ 1) : IVec S_ 1 :=
  let main_v34 : FVec F S128x64 .f32 := Host.absf main_arg10
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg11
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg12
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg7 : FVec F S128x128 .f32) (main_arg8 : FVec F S128x128 .f32) (main_arg9 : FVec F S128 .f32) (main_arg10 : FVec F S128x64 .f32) (main_arg11 : FVec F S128x64 .f32) (main_arg12 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_v33

def fn {F : FTy → Type} [FloatOps F] (main_arg0 : FVec F S50000x128 .f32) (main_arg1 : IVec S2x800000 32) (main_arg2 : IVec S2x800000 32) (main_arg3 : IVec S2x800000 32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x64 .f32) (main_arg11 : FVec F S128x64 .f32) (main_arg12 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S5000x128 : Shape := ⟨2, ![5000, 128]⟩
abbrev S5000x1 : Shape := ⟨2, ![5000, 1]⟩
abbrev S1x128 : Shape := ⟨2, ![1, 128]⟩
abbrev S50000x64 : Shape := ⟨2, ![50000, 64]⟩
abbrev S5000x64 : Shape := ⟨2, ![5000, 64]⟩
abbrev S1x64 : Shape := ⟨2, ![1, 64]⟩

abbrev nBuf : Space → Nat
  | .hbm => 112
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S2x800000, .i32⟩
  | .hbm, ⟨3, _⟩ => ⟨S2x800000, .i32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S128x64, .f32⟩
  | .hbm, ⟨12, _⟩ => ⟨S64, .f32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S1x800000, .i32⟩
  | .hbm, ⟨25, _⟩ => ⟨S800000, .i32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S_, .f32⟩
  | .hbm, ⟨31, _⟩ => ⟨S800000, .f32⟩
  | .hbm, ⟨32, _⟩ => ⟨S1x800000, .i32⟩
  | .hbm, ⟨33, _⟩ => ⟨S800000, .i32⟩
  | .hbm, ⟨34, _⟩ => ⟨S_, .f32⟩
  | .hbm, ⟨35, _⟩ => ⟨S50000, .f32⟩
  | .hbm, ⟨36, _⟩ => ⟨S800000x1, .i32⟩
  | .hbm, ⟨37, _⟩ => ⟨S50000, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S50000x1, .f32⟩
  | .hbm, ⟨45, _⟩ => ⟨S50000x128, .f32⟩
  | .hbm, ⟨46, _⟩ => ⟨S1x800000, .i32⟩
  | .hbm, ⟨47, _⟩ => ⟨S800000, .i32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S1x800000, .i32⟩
  | .hbm, ⟨58, _⟩ => ⟨S800000, .i32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S_, .f32⟩
  | .hbm, ⟨64, _⟩ => ⟨S800000, .f32⟩
  | .hbm, ⟨65, _⟩ => ⟨S1x800000, .i32⟩
  | .hbm, ⟨66, _⟩ => ⟨S800000, .i32⟩
  | .hbm, ⟨67, _⟩ => ⟨S_, .f32⟩
  | .hbm, ⟨68, _⟩ => ⟨S50000, .f32⟩
  | .hbm, ⟨69, _⟩ => ⟨S800000x1, .i32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S_, .f32⟩
  | .hbm, ⟨75, _⟩ => ⟨S50000, .f32⟩
  | .hbm, ⟨76, _⟩ => ⟨S50000, .f32⟩
  | .hbm, ⟨77, _⟩ => ⟨S50000x1, .f32⟩
  | .hbm, ⟨78, _⟩ => ⟨S50000x128, .f32⟩
  | .hbm, ⟨79, _⟩ => ⟨S1x800000, .i32⟩
  | .hbm, ⟨80, _⟩ => ⟨S800000, .i32⟩
  | .hbm, ⟨81, _⟩ => ⟨S_, .i32⟩
  | .hbm, ⟨82, _⟩ => ⟨S800000, .i32⟩
  | .hbm, ⟨83, _⟩ => ⟨S800000, .i1⟩
  | .hbm, ⟨84, _⟩ => ⟨S_, .i32⟩
  | .hbm, ⟨85, _⟩ => ⟨S800000, .i32⟩
  | .hbm, ⟨86, _⟩ => ⟨S800000, .i32⟩
  | .hbm, ⟨87, _⟩ => ⟨S800000, .i32⟩
  | .hbm, ⟨88, _⟩ => ⟨S800000x1, .i32⟩
  | .hbm, ⟨89, _⟩ => ⟨S800000x128, .f32⟩
  | .hbm, ⟨90, _⟩ => ⟨S1x800000, .i32⟩
  | .hbm, ⟨91, _⟩ => ⟨S800000, .i32⟩
  | .hbm, ⟨92, _⟩ => ⟨S_, .f32⟩
  | .hbm, ⟨93, _⟩ => ⟨S50000x128, .f32⟩
  | .hbm, ⟨94, _⟩ => ⟨S800000x1, .i32⟩
  | .hbm, ⟨95, _⟩ => ⟨S50000x128, .f32⟩
  | .hbm, ⟨96, _⟩ => ⟨S_, .f32⟩
  | .hbm, ⟨97, _⟩ => ⟨S800000, .f32⟩
  | .hbm, ⟨98, _⟩ => ⟨S1x800000, .i32⟩
  | .hbm, ⟨99, _⟩ => ⟨S800000, .i32⟩
  | .hbm, ⟨100, _⟩ => ⟨S_, .f32⟩
  | .hbm, ⟨101, _⟩ => ⟨S50000, .f32⟩
  | .hbm, ⟨102, _⟩ => ⟨S800000x1, .i32⟩
  | .hbm, ⟨103, _⟩ => ⟨S50000, .f32⟩
  | .hbm, ⟨104, _⟩ => ⟨S_, .f32⟩
  | .hbm, ⟨105, _⟩ => ⟨S50000, .f32⟩
  | .hbm, ⟨106, _⟩ => ⟨S50000, .f32⟩
  | .hbm, ⟨107, _⟩ => ⟨S_, .f32⟩
  | .hbm, ⟨108, _⟩ => ⟨S50000, .f32⟩
  | .hbm, ⟨109, _⟩ => ⟨S50000, .f32⟩
  | .hbm, ⟨110, _⟩ => ⟨S50000x1, .f32⟩
  | .hbm, ⟨111, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128x128, .f32⟩
  | .local _ .vmem, ⟨19, _⟩ => ⟨S128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x1, .f32⟩
  | .local _ .vmem, ⟨27, _⟩ => ⟨S5000x1, .f32⟩
  | .local _ .vmem, ⟨28, _⟩ => ⟨S128x64, .f32⟩
  | .local _ .vmem, ⟨29, _⟩ => ⟨S128x64, .f32⟩
  | .local _ .vmem, ⟨30, _⟩ => ⟨S64, .f32⟩
  | .local _ .vmem, ⟨31, _⟩ => ⟨S5000x64, .f32⟩
  | .local _ .vmem, ⟨32, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_cst_11 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c_12 : Ref sig .tc := ⟨.hbm, 81, rfl⟩
abbrev main_v54 : Ref sig .tc := ⟨.hbm, 82, rfl⟩
abbrev main_v55 : Ref sig .tc := ⟨.hbm, 83, rfl⟩
abbrev main_c_13 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_14 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_15 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_17 : Ref sig .tc := ⟨.hbm, 104, rfl⟩
abbrev main_v72 : Ref sig .tc := ⟨.hbm, 105, rfl⟩
abbrev main_v73 : Ref sig .tc := ⟨.hbm, 106, rfl⟩
abbrev main_cst_18 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_1_0 : S2x800000.Slices ![1, 0] S1x800000
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v65) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v76) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v77) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 131
  | .vmem => 0
  | .smem => 0
  | _ => 0

abbrev hbmTy0_0 (i : Nat) : BufTy := match i % 128 with
  | 0 => ⟨S50000x128, .f32⟩
  | 1 => ⟨S2x800000, .i32⟩
  | 2 => ⟨S2x800000, .i32⟩
  | 3 => ⟨S2x800000, .i32⟩
  | 4 => ⟨S128x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x64, .f32⟩
  | 11 => ⟨S128x64, .f32⟩
  | 12 => ⟨S64, .f32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S1x800000, .i32⟩
  | 25 => ⟨S800000, .i32⟩
  | 26 => ⟨S_, .f32⟩
  | 27 => ⟨S50000x128, .f32⟩
  | 28 => ⟨S800000x1, .i32⟩
  | 29 => ⟨S50000x128, .f32⟩
  | 30 => ⟨S_, .f32⟩
  | 31 => ⟨S800000, .f32⟩
  | 32 => ⟨S1x800000, .i32⟩
  | 33 => ⟨S800000, .i32⟩
  | 34 => ⟨S_, .f32⟩
  | 35 => ⟨S50000, .f32⟩
  | 36 => ⟨S800000x1, .i32⟩
  | 37 => ⟨S50000, .f32⟩
  | 38 => ⟨S_, .f32⟩
  | 39 => ⟨S50000, .f32⟩
  | 40 => ⟨S50000, .f32⟩
  | 41 => ⟨S50000x1, .f32⟩
  | 42 => ⟨S50000x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S50000x128, .f32⟩
  | 49 => ⟨S50000x128, .f32⟩
  | 50 => ⟨S_, .f32⟩
  | 51 => ⟨S50000x128, .f32⟩
  | 52 => ⟨S50000x128, .f32⟩
  | 53 => ⟨S1x800000, .i32⟩
  | 54 => ⟨S800000, .i32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S1x800000, .i32⟩
  | 65 => ⟨S800000, .i32⟩
  | 66 => ⟨S_, .f32⟩
  | 67 => ⟨S50000x128, .f32⟩
  | 68 => ⟨S800000x1, .i32⟩
  | 69 => ⟨S50000x128, .f32⟩
  | 70 => ⟨S_, .f32⟩
  | 71 => ⟨S800000, .f32⟩
  | 72 => ⟨S1x800000, .i32⟩
  | 73 => ⟨S800000, .i32⟩
  | 74 => ⟨S_, .f32⟩
  | 75 => ⟨S50000, .f32⟩
  | 76 => ⟨S800000x1, .i32⟩
  | 77 => ⟨S50000, .f32⟩
  | 78 => ⟨S_, .f32⟩
  | 79 => ⟨S50000, .f32⟩
  | 80 => ⟨S50000, .f32⟩
  | 81 => ⟨S50000x1, .f32⟩
  | 82 => ⟨S50000x128, .f32⟩
  | 83 => ⟨S50000x128, .f32⟩
  | 84 => ⟨S50000x128, .f32⟩
  | 85 => ⟨S1x128, .f32⟩
  | 86 => ⟨S50000x128, .f32⟩
  | 87 => ⟨S50000x128, .f32⟩
  | 88 => ⟨S50000x128, .f32⟩
  | 89 => ⟨S50000x128, .f32⟩
  | 90 => ⟨S_, .f32⟩
  | 91 => ⟨S50000x128, .f32⟩
  | 92 => ⟨S50000x128, .f32⟩
  | 93 => ⟨S50000x128, .f32⟩
  | 94 => ⟨S1x800000, .i32⟩
  | 95 => ⟨S800000, .i32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x128, .f32⟩
  | 105 => ⟨S1x800000, .i32⟩
  | 106 => ⟨S800000, .i32⟩
  | 107 => ⟨S_, .f32⟩
  | 108 => ⟨S50000x128, .f32⟩
  | 109 => ⟨S800000x1, .i32⟩
  | 110 => ⟨S50000x128, .f32⟩
  | 111 => ⟨S_, .f32⟩
  | 112 => ⟨S800000, .f32⟩
  | 113 => ⟨S1x800000, .i32⟩
  | 114 => ⟨S800000, .i32⟩
  | 115 => ⟨S_, .f32⟩
  | 116 => ⟨S50000, .f32⟩
  | 117 => ⟨S800000x1, .i32⟩
  | 118 => ⟨S50000, .f32⟩
  | 119 => ⟨S_, .f32⟩
  | 120 => ⟨S50000, .f32⟩
  | 121 => ⟨S50000, .f32⟩
  | 122 => ⟨S50000x1, .f32⟩
  | 123 => ⟨S50000x128, .f32⟩
  | 124 => ⟨S50000x128, .f32⟩
  | 125 => ⟨S50000x64, .f32⟩
  | 126 => ⟨S1x64, .f32⟩
  | 127 => ⟨S50000x64, .f32⟩
  | _ => ⟨S50000x128, .f32⟩

abbrev hbmTy0_1 (i : Nat) : BufTy := match i % 128 with
  | 0 => ⟨S50000x64, .f32⟩
  | 1 => ⟨S50000x64, .f32⟩
  | 2 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call0_cst : Ref sig .tc := ⟨.hbm, 50, rfl⟩
abbrev main_call0_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_4 : Ref sig .tc := ⟨.hbm, 55, rfl⟩
abbrev main_v34 : Ref sig .tc := ⟨.hbm, 56, rfl⟩
abbrev main_v35 : Ref sig .tc := ⟨.hbm, 57, rfl⟩
abbrev main_c_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_8 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_call1_cst : Ref sig .tc := ⟨.hbm, 90, rfl⟩
abbrev main_call1_v0 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_10 : Ref sig .tc := ⟨.hbm, 96, rfl⟩
abbrev main_v67 : Ref sig .tc := ⟨.hbm, 97, rfl⟩
abbrev main_v68 : Ref sig .tc := ⟨.hbm, 98, rfl⟩
abbrev main_c_11 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_12 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_13 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_14 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_15 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_1_0 : S2x800000.Slices ![1, 0] S1x800000
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run, keeping what the frame forgets: the result array.

  @main is six segments — three stretches of host operations and three launches of the layer kernel. The
  generated frame follows the contents of every buffer through the six segments (`W0` … `W6`) and reads, at
  the end, only the argument arrays. Read against the same final contents, the result buffer holds
  `W6 … main_v77`: what the third launch's write-backs leave in its output array. The launch theorem is
  applied to the same segments, thread states and ghost data as the frame; only the last reading differs.
-/
import proofs.«173595_j60258391163614_2_alg».proof.Proof.Gen.KernelIdeal.Frame

set_option maxRecDepth 16384

noncomputable section

namespace Cert.Sage.Kernel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer then holds the contents the
    third launch leaves in its output array, and every argument array is as launched. -/
theorem run_result : θ_run defs (onTc (τ := τ) (main (F := F))) ⟨m, fun _ => 0, ρ⟩ (fun r => ∀ c : Dev nD,
      r.2.mem ((c.tc : Thread nD τ).loc main_v77) = W6 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v77 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

end Cert.Sage.Kernel

end
-- ==== Proof.Law.lean ====
/-
  The one algebraic law that joins the two programs, on the extended reals.

  A layer averages the neighbour sum of every node by the node's in-degree, floored at one, and multiplies
  the average by a weight matrix. One program divides every entry of the row by `max d 1` and then contracts
  the row with a column of the matrix; the other contracts first and then multiplies the result by the
  reciprocal `1 / max d 1`. On the extended reals division by `y ≠ 0` is the product with `y⁻¹`, and
  `(max d 1)⁻¹` is a finite real in `[0, 1]` whatever `d` is (`⊤⁻¹ = 0`). A finite nonnegative real factor
  distributes over every sum of extended reals (no `⊤ - ⊤` can be created or destroyed by it), so the two
  arrangements are one value — with no finiteness assumed of the summands.
-/
import Idealize.ShloMosaic.PureOps.Ideal
import Mathlib.Data.EReal.Operations
import Mathlib.Data.EReal.Inv

noncomputable section

namespace Cert.Sage

open Idealize.ShloMosaic

/-- The pattern of `1.0` denotes the real one. -/
theorem ofBits_one : Ideal.ofBits .f32 0x3F800000#32 = (1 : EReal) := by
  simp [Ideal.ofBits, Ideal.ieee, -EReal.coe_mul]; norm_num

/-- The reciprocal of `max d 1` is a finite nonnegative real, for every extended real `d`. -/
theorem inv_max_one (d : EReal) : ∃ r : ℝ, 0 ≤ r ∧ (max d 1)⁻¹ = (r : EReal) := by
  have h1 : (1 : EReal) ≤ max d 1 := le_max_right d 1
  induction hy : max d 1 using EReal.rec with
  | bot =>
    rw [hy] at h1
    exact absurd (le_bot_iff.mp h1) (by rw [← EReal.coe_one]; exact EReal.coe_ne_bot 1)
  | top => exact ⟨0, le_refl 0, by simp⟩
  | coe v =>
    rw [hy] at h1
    have hv : (1 : ℝ) ≤ v := by exact_mod_cast h1
    exact ⟨v⁻¹, inv_nonneg.mpr (by linarith), (EReal.coe_inv v).symm⟩

/-- `max d 1` is not zero. -/
theorem max_one_ne_zero (d : EReal) : max d 1 ≠ 0 := by
  have h1 : (1 : EReal) ≤ max d 1 := le_max_right d 1
  intro h; rw [h] at h1; exact absurd h1 (by norm_num)

/-- Division by `max d 1` is the product with its reciprocal. -/
theorem div_max_one (a d : EReal) : Ideal.div a (max d 1) = a * (max d 1)⁻¹ := by
  rw [Ideal.div, if_neg (max_one_ne_zero d)]

/-- A finite nonnegative real factor distributes over a finite sum of extended reals. -/
theorem sum_mul_real {ι : Type*} (s : Finset ι) (f : ι → EReal) (r : ℝ) (hr : 0 ≤ r) :
    (∑ k ∈ s, f k) * (r : EReal) = ∑ k ∈ s, f k * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- THE LAW. Contracting a row with a column and then scaling by `1 / max d 1` is contracting the row divided
    entrywise by `max d 1`. -/
theorem scale_after_eq_divide_before {ι : Type*} [Fintype ι] (a w : ι → EReal) (d : EReal) :
    (∑ k, a k * w k) * Ideal.div (Ideal.ofBits .f32 0x3F800000#32) (max d (Ideal.ofBits .f32 0x3F800000#32))
      = ∑ k, Ideal.div (a k) (max d (Ideal.ofBits .f32 0x3F800000#32)) * w k := by
  rw [ofBits_one, div_max_one, one_mul]
  obtain ⟨r, hr, e⟩ := inv_max_one d
  rw [e, sum_mul_real _ _ r hr]
  refine Finset.sum_congr rfl fun k _ => ?_
  rw [div_max_one, e, mul_right_comm]

end Cert.Sage

end
-- ==== Proof.Layer.lean ====
/-
  One layer of the network at one node `r` and one output feature `j`, in the two arrangements the two programs
  compute it in, and their equality.

  `agg` is the sum of the neighbours' feature rows, `feat` the node's own features, `wl` and `wr` the two weight
  matrices and `b` the bias. The first arrangement contracts the neighbour sum with `wl` and then multiplies by the
  node's factor `inv r`; the second divides the neighbour sum by the node's divisor `dm r` and then contracts. When
  `dm r = max d 1` and `inv r = 1 / dm r` they are one value (the law of `Law.lean`); the two remaining terms are
  added in different orders, which the extended reals do not see.
-/
import proofs.«173595_j60258391163614_2_alg».proof.Proof.Law
import Idealize.ShloMosaic.Lib.ValueIdx

noncomputable section

namespace Cert.Sage

open Idealize.ShloMosaic Idealize.ShloMosaic.ValueIdx

/-- The pattern of `1.0`, kept as a pattern: both programs spell it, and only the law evaluates it. -/
abbrev one32 : EReal := Ideal.ofBits .f32 0x3F800000#32

/-- Contract, then scale by the node's factor; add the node's own term, then the bias. -/
def scaledAfter {D : ℕ} (agg feat : (⟨2, ![50000, 128]⟩ : Shape).Idx → EReal) (inv : (⟨2, ![50000, 1]⟩ : Shape).Idx → EReal)
    (wl wr : (⟨2, ![128, D]⟩ : Shape).Idx → EReal) (b : (⟨1, ![D]⟩ : Shape).Idx → EReal) (r : Fin 50000) (j : Fin D) : EReal :=
  ((∑ k : Fin 128, agg (ix2 r k) * wl (ix2 k j)) * inv (ix2 r (0 : Fin 1)) + ∑ k : Fin 128, feat (ix2 r k) * wr (ix2 k j)) + b (ix1 j)

/-- Divide by the node's divisor, then contract; add the bias, then the node's own term. -/
def dividedBefore {D : ℕ} (agg feat : (⟨2, ![50000, 128]⟩ : Shape).Idx → EReal) (dm : (⟨1, ![50000]⟩ : Shape).Idx → EReal)
    (wl wr : (⟨2, ![128, D]⟩ : Shape).Idx → EReal) (b : (⟨1, ![D]⟩ : Shape).Idx → EReal) (r : Fin 50000) (j : Fin D) : EReal :=
  ((∑ k : Fin 128, Ideal.div (agg (ix2 r k)) (dm (ix1 r)) * wl (ix2 k j)) + b (ix1 j)) + ∑ k : Fin 128, feat (ix2 r k) * wr (ix2 k j)

/-- The two arrangements agree when the divisor is a count floored at one and the factor is its reciprocal. -/
theorem scaledAfter_eq_dividedBefore {D : ℕ} (agg feat : (⟨2, ![50000, 128]⟩ : Shape).Idx → EReal)
    (inv : (⟨2, ![50000, 1]⟩ : Shape).Idx → EReal) (dm : (⟨1, ![50000]⟩ : Shape).Idx → EReal)
    (wl wr : (⟨2, ![128, D]⟩ : Shape).Idx → EReal) (b : (⟨1, ![D]⟩ : Shape).Idx → EReal) (r : Fin 50000) (j : Fin D)
    (d : EReal) (hdm : dm (ix1 r) = max d one32) (hinv : inv (ix2 r (0 : Fin 1)) = Ideal.div one32 (dm (ix1 r))) :
    scaledAfter agg feat inv wl wr b r j = dividedBefore agg feat dm wl wr b r j := by
  unfold scaledAfter dividedBefore
  rw [hinv, hdm, scale_after_eq_divide_before (fun k => agg (ix2 r k)) (fun k => wl (ix2 k j)) d]
  exact add_right_comm _ _ _

end Cert.Sage

end
-- ==== Proof.Layers.lean ====
/-
  The three layers as functions of whole arrays, the way the layer kernel computes them.

  Each is the contract-then-scale form of `Layer.lean` at every node and output feature; the first two are
  floored at zero, the second adds the node's own features back (the skip connection), the third has neither.
-/
import proofs.«173595_j60258391163614_2_alg».proof.Proof.Layer

noncomputable section

namespace Cert.Sage

open Idealize.ShloMosaic Idealize.ShloMosaic.ValueIdx

/-- The first layer: the pre-activation floored at zero. -/
def layer0 (agg feat : (⟨2, ![50000, 128]⟩ : Shape).Idx → EReal) (inv : (⟨2, ![50000, 1]⟩ : Shape).Idx → EReal)
    (wl wr : (⟨2, ![128, 128]⟩ : Shape).Idx → EReal) (b : (⟨1, ![128]⟩ : Shape).Idx → EReal) :
    (⟨2, ![50000, 128]⟩ : Shape).Idx → EReal :=
  fun i => max (scaledAfter agg feat inv wl wr b (i 0) (i 1)) (Ideal.ofBits .f32 0x00000000#32)

/-- The second layer: the pre-activation floored at zero, plus the node's own features. -/
def layer1 (agg feat : (⟨2, ![50000, 128]⟩ : Shape).Idx → EReal) (inv : (⟨2, ![50000, 1]⟩ : Shape).Idx → EReal)
    (wl wr : (⟨2, ![128, 128]⟩ : Shape).Idx → EReal) (b : (⟨1, ![128]⟩ : Shape).Idx → EReal) :
    (⟨2, ![50000, 128]⟩ : Shape).Idx → EReal :=
  fun i => max (scaledAfter agg feat inv wl wr b (i 0) (i 1)) (Ideal.ofBits .f32 0x00000000#32) + feat i

/-- The third layer: the pre-activation itself, 64 output features. -/
def layer2 (agg feat : (⟨2, ![50000, 128]⟩ : Shape).Idx → EReal) (inv : (⟨2, ![50000, 1]⟩ : Shape).Idx → EReal)
    (wl wr : (⟨2, ![128, 64]⟩ : Shape).Idx → EReal) (b : (⟨1, ![64]⟩ : Shape).Idx → EReal) :
    (⟨2, ![50000, 64]⟩ : Shape).Idx → EReal :=
  fun i => scaledAfter agg feat inv wl wr b (i 0) (i 1)

end Cert.Sage

end
-- ==== Proof.Payload.lean ====
/-
  The value each of the three layer bodies stores, read at one row `p` of its block and one output feature `q`.

  A body contracts the neighbour-sum block with the first weight matrix and multiplies the result by the row's
  factor, contracts the node's own feature block with the second weight matrix, adds the two and then the bias;
  the first two layers clamp the result below at zero, and the second layer adds the node's own feature back.
  At the extended reals the narrowing of an operand is the identity and a matrix product into a zero accumulator
  is a plain sum over the 128 contracted features, so each stored value is the closed expression stated here.
-/
import proofs.«173595_j60258391163614_2_alg».proof.Proof.Gen.KernelIdeal.Skeleton
import proofs.«173595_j60258391163614_2_alg».proof.Proof.Layer
import Idealize.ShloMosaic.Lib.ValueIdx
import Idealize.ShloMosaic.Lib.Pipeline.Value
import Idealize.ShloMosaic.Lib.ValueLayout
import Idealize.ShloMosaic.PureOps.Ideal.Laws

noncomputable section

namespace Cert.Sage

open Cert.KernelIdeal Cert.KernelIdeal.Gen Idealize.ShloMosaic Idealize.ShloMosaic.ValueIdx

/-! ## The two matrix products at an index -/

/-- A `[5000,128]` by `[128,128]` product into the zero accumulator, at row `p` and column `q`: the sum over the contracted feature `k` of the products. -/
theorem matmul128_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  -- the row coordinate of the left operand's index is the result's row
  have l0 : ∀ (i : S5000x128.Idx) (c : dot_S5000x128_S128x128_S5000x128_1_0_0_1_n_n.contr.Idx), (dot_S5000x128_S128x128_S5000x128_1_0_0_1_n_n.lhsIdx i c 0).val = (i 0).val := fun i c => by
    unfold DotDims.lhsIdx
    rw [dif_neg (show ¬(0 : Fin S5000x128.rank) ∈ dot_S5000x128_S128x128_S5000x128_1_0_0_1_n_n.lhsBatch by decide),
      dif_pos (show (0 : Fin S5000x128.rank) ∈ dot_S5000x128_S128x128_S5000x128_1_0_0_1_n_n.lhsNonContracting by decide)]
    rfl
  -- the column coordinate of the right operand's index is the result's column
  have r1 : ∀ (i : S5000x128.Idx) (c : dot_S5000x128_S128x128_S5000x128_1_0_0_1_n_n.contr.Idx), (dot_S5000x128_S128x128_S5000x128_1_0_0_1_n_n.rhsIdx i c 1).val = (i 1).val := fun i c => by
    unfold DotDims.rhsIdx
    rw [dif_neg (show ¬(1 : Fin S128x128.rank) ∈ dot_S5000x128_S128x128_S5000x128_1_0_0_1_n_n.rhsBatch by decide),
      dif_pos (show (1 : Fin S128x128.rank) ∈ dot_S5000x128_S128x128_S5000x128_1_0_0_1_n_n.rhsNonContracting by decide)]
    rfl
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact l0 _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (dot_S5000x128_S128x128_S5000x128_1_0_0_1_n_n.rhsIdx_val_of_single rfl _ _).trans hk
      | ⟨1, _⟩ => exact r1 _ _)
  rw [el, er]

/-- A `[5000,128]` by `[128,64]` product into the zero accumulator, at row `p` and column `q`: the sum over the contracted feature `k` of the products. -/
theorem matmul64_apply (l : FVec Ideal S5000x128 .bf16) (r : FVec Ideal S128x64 .bf16) (p : Fin 5000) (q : Fin 64) :
    matmul dot_S5000x128_S128x64_S5000x64_1_0_0_1_n_n none l r (constant (F := Ideal) S5000x64 .f32 0x00000000#32) (ix2 p q)
      = ∑ k : Fin 128, l (ix2 p k) * r (ix2 k q) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  -- the row coordinate of the left operand's index is the result's row
  have l0 : ∀ (i : S5000x64.Idx) (c : dot_S5000x128_S128x64_S5000x64_1_0_0_1_n_n.contr.Idx), (dot_S5000x128_S128x64_S5000x64_1_0_0_1_n_n.lhsIdx i c 0).val = (i 0).val := fun i c => by
    unfold DotDims.lhsIdx
    rw [dif_neg (show ¬(0 : Fin S5000x128.rank) ∈ dot_S5000x128_S128x64_S5000x64_1_0_0_1_n_n.lhsBatch by decide),
      dif_pos (show (0 : Fin S5000x128.rank) ∈ dot_S5000x128_S128x64_S5000x64_1_0_0_1_n_n.lhsNonContracting by decide)]
    rfl
  -- the column coordinate of the right operand's index is the result's column
  have r1 : ∀ (i : S5000x64.Idx) (c : dot_S5000x128_S128x64_S5000x64_1_0_0_1_n_n.contr.Idx), (dot_S5000x128_S128x64_S5000x64_1_0_0_1_n_n.rhsIdx i c 1).val = (i 1).val := fun i c => by
    unfold DotDims.rhsIdx
    rw [dif_neg (show ¬(1 : Fin S128x64.rank) ∈ dot_S5000x128_S128x64_S5000x64_1_0_0_1_n_n.rhsBatch by decide),
      dif_pos (show (1 : Fin S128x64.rank) ∈ dot_S5000x128_S128x64_S5000x64_1_0_0_1_n_n.rhsNonContracting by decide)]
    rfl
  have el : dot_S5000x128_S128x64_S5000x64_1_0_0_1_n_n.lhsIdx (ix2 p q) ((contrEquiv1 dot_S5000x128_S128x64_S5000x64_1_0_0_1_n_n 128 rfl rfl).symm k) = ix2 p k :=
    funext fun a => Fin.ext (by
      match a with
      | ⟨0, _⟩ => exact l0 _ _
      | ⟨1, _⟩ => exact (dot_S5000x128_S128x64_S5000x64_1_0_0_1_n_n.lhsIdx_val_of_single rfl _ _).trans hk)
  have er : dot_S5000x128_S128x64_S5000x64_1_0_0_1_n_n.rhsIdx (ix2 p q) ((contrEquiv1 dot_S5000x128_S128x64_S5000x64_1_0_0_1_n_n 128 rfl rfl).symm k) = ix2 k q :=
    funext fun a => Fin.ext (by
      match a with
      | ⟨0, _⟩ => exact (dot_S5000x128_S128x64_S5000x64_1_0_0_1_n_n.rhsIdx_val_of_single rfl _ _).trans hk
      | ⟨1, _⟩ => exact r1 _ _)
  rw [el, er]

/-! ## A column broadcast along the rows -/

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The three stored values -/

/-- The first layer's stored value: the layer's sum, clamped below at zero. -/
theorem pay0_apply (v0 v2 : Vec Ideal S5000x128 .f32) (v5 v7 : Vec Ideal S128x128 .f32) (v10 : Vec Ideal S5000x1 .f32)
    (v17 : Vec Ideal S128 .f32) (p : Fin 5000) (q : Fin 128) :
    k0_pay1 (F := Ideal) v0 v2 v5 v7 v10 v17 (ix2 p q)
      = max (((∑ k : Fin 128, v2 (ix2 p k) * v5 (ix2 k q)) * v10 (ix2 p (0 : Fin 1)) + ∑ k : Fin 128, v0 (ix2 p k) * v7 (ix2 k q)) + v17 (ix1 q)) (Ideal.ofBits .f32 0x00000000#32) := by
  unfold k0_pay1
  simp only [shapeCast_self]
  rw [maximumf_apply, addf_apply, addf_apply, mulf_apply, broadcast_apply, matmul128_apply, matmul128_apply,
    broadcastTo_a1_ab_apply, broadcastTo_1b_ab_apply, shapeCast_a_1a_apply]
  rfl

/-- The second layer's stored value: the layer's sum, clamped below at zero, plus the node's own feature. -/
theorem pay1_apply (v0 v3 : Vec Ideal S5000x128 .f32) (v6 v8 : Vec Ideal S128x128 .f32) (v11 : Vec Ideal S5000x1 .f32)
    (v18 : Vec Ideal S128 .f32) (p : Fin 5000) (q : Fin 128) :
    k1_pay1 (F := Ideal) v0 v3 v6 v8 v11 v18 (ix2 p q)
      = max (((∑ k : Fin 128, v3 (ix2 p k) * v6 (ix2 k q)) * v11 (ix2 p (0 : Fin 1)) + ∑ k : Fin 128, v0 (ix2 p k) * v8 (ix2 k q)) + v18 (ix1 q)) (Ideal.ofBits .f32 0x00000000#32) + v0 (ix2 p q) := by
  unfold k1_pay1
  simp only [shapeCast_self]
  rw [addf_apply, maximumf_apply, addf_apply, addf_apply, mulf_apply, broadcast_apply, matmul128_apply, matmul128_apply,
    broadcastTo_a1_ab_apply, broadcastTo_1b_ab_apply, shapeCast_a_1a_apply]
  rfl

/-- The last layer's stored value: the layer's sum itself, over 64 output features. -/
theorem pay2_apply (v0 v3 : Vec Ideal S5000x128 .f32) (v6 v8 : Vec Ideal S128x64 .f32) (v11 : Vec Ideal S5000x1 .f32)
    (v18 : Vec Ideal S64 .f32) (p : Fin 5000) (q : Fin 64) :
    k2_pay1 (F := Ideal) v0 v3 v6 v8 v11 v18 (ix2 p q)
      = ((∑ k : Fin 128, v3 (ix2 p k) * v6 (ix2 k q)) * v11 (ix2 p (0 : Fin 1)) + ∑ k : Fin 128, v0 (ix2 p k) * v8 (ix2 k q)) + v18 (ix1 q) := by
  unfold k2_pay1
  simp only [shapeCast_self]
  rw [addf_apply, addf_apply, mulf_apply, matmul64_apply, matmul64_apply,
    broadcastTo_a1_ab_apply, broadcastTo_1b_ab_apply, shapeCast_a_1a_apply]
  rfl

end Cert.Sage

end
-- ==== Proof.Region0.lean ====
/-
  The first launch, from blocks to the array.

  The launch walks ten grid points; point `t` stages rows `5000 t … 5000 t + 4999` of the neighbour sums, of the
  node features and of the per-node factors, the two weight matrices and the bias whole, and writes back the
  same rows of the output. Row `p` of what it writes depends only on row `p` of the staged blocks, so block `t`
  of the output is block `t` of ONE function of the whole arrays (`layer0`), and the ten blocks cover the output.
-/
import proofs.«173595_j60258391163614_2_alg».proof.Proof.Gen.KernelIdeal.Frame
import proofs.«173595_j60258391163614_2_alg».proof.Proof.Layers
import proofs.«173595_j60258391163614_2_alg».proof.Proof.Payload
import Idealize.ShloMosaic.Lib.Pipeline.Value
import Idealize.ShloMosaic.Lib.ValueIdx

set_option maxRecDepth 16384

noncomputable section

namespace Cert.Sage

open Cert.KernelIdeal Cert.KernelIdeal.Gen
open Idealize.ShloMosaic Idealize.ShloMosaic.TcCoe Idealize.SL.Sem Idealize.ShloMosaic.ValueIdx
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a <;> rfl

/-- Row `p` of a block staged at point `T` is row `5000 T + p` of the array. -/
def rowAt (T : Fin 10) (p : Fin 5000) : Fin 50000 := ⟨T.val * 5000 + p.val, by have := T.isLt; have := p.isLt; omega⟩

/-- What a point stores, from blocks that are rows `5000 T …` of the arrays (and the whole weights and bias):
    row `p`, column `q` of it is `layer0` of the arrays at row `5000 T + p`, column `q`. -/
theorem point0 (agg feat : S50000x128.Idx → EReal) (inv : S50000x1.Idx → EReal) (wl wr : S128x128.Idx → EReal) (b : S128.Idx → EReal)
    (x0 x1 : Vec Ideal S5000x128 .f32) (x2 : Vec Ideal S5000x1 .f32) (x3 x4 : Vec Ideal S128x128 .f32) (x5 : Vec Ideal S128 .f32)
    (T : Fin 10)
    (h0 : ∀ (p : Fin 5000) (k : Fin 128), x0 (ix2 p k) = agg (ix2 (rowAt T p) k))
    (h1 : ∀ (p : Fin 5000) (k : Fin 128), x1 (ix2 p k) = feat (ix2 (rowAt T p) k))
    (h2 : ∀ (p : Fin 5000), x2 (ix2 p (0 : Fin 1)) = inv (ix2 (rowAt T p) (0 : Fin 1)))
    (h3 : x3 = wl) (h4 : x4 = wr) (h5 : x5 = b) (p : Fin 5000) (q : Fin 128) :
    k0_pay1 (F := Ideal) x1 x0 x3 x4 x2 x5 (ix2 p q) = layer0 agg feat inv wl wr b (ix2 (rowAt T p) q) := by
  rw [pay0_apply]
  subst h3 h4 h5
  unfold layer0 scaledAfter
  simp only [h0, h1, h2]

variable (V : (c : Dev nD) → (b : Ref sig .tc) → Buf (Elt Ideal) ((c : Thread nD τ).loc b))

/-- The printed index maps over the grid: the row windows are at block `(t, 0)`, the weights and the bias at block zero. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Row `p` of the neighbour-sum block at point `t` is row `5000 t + p` of the array. -/
theorem blk0_0 (c : Dev nD) (t : Fin cfg0.N) (T : Fin 10) (hT : T.val = t.val) (p : Fin 5000) (k : Fin 128) :
    (iblk0 V c 0 t : Vec Ideal S5000x128 .f32) (ix2 p k) = (V c main_v13 : S50000x128.Idx → EReal) (ix2 (rowAt T p) k) := by
  obtain ⟨e0, e1, -⟩ := idx0 t
  unfold iblk0
  rw [View.read_apply]
  show V c main_v13 _ = V c main_v13 _
  congr 1
  funext a
  apply Fin.ext
  match a with
  | ⟨0, _⟩ => show win0_0.index t 0 * 5000 + 1 * p.val = T.val * 5000 + p.val; rw [e0, hT]; omega
  | ⟨1, _⟩ => show win0_0.index t 1 * 128 + 1 * k.val = k.val; rw [e1]; omega

/-- Row `p` of the feature block at point `t` is row `5000 t + p` of the array. -/
theorem blk0_1 (c : Dev nD) (t : Fin cfg0.N) (T : Fin 10) (hT : T.val = t.val) (p : Fin 5000) (k : Fin 128) :
    (iblk0 V c 1 t : Vec Ideal S5000x128 .f32) (ix2 p k) = (V c main_arg0 : S50000x128.Idx → EReal) (ix2 (rowAt T p) k) := by
  obtain ⟨-, -, e0, e1, -⟩ := idx0 t
  unfold iblk0
  rw [View.read_apply]
  show V c main_arg0 _ = V c main_arg0 _
  congr 1
  funext a
  apply Fin.ext
  match a with
  | ⟨0, _⟩ => show win0_1.index t 0 * 5000 + 1 * p.val = T.val * 5000 + p.val; rw [e0, hT]; omega
  | ⟨1, _⟩ => show win0_1.index t 1 * 128 + 1 * k.val = k.val; rw [e1]; omega

/-- Entry `p` of the factor block at point `t` is entry `5000 t + p` of the column of factors. -/
theorem blk0_2 (c : Dev nD) (t : Fin cfg0.N) (T : Fin 10) (hT : T.val = t.val) (p : Fin 5000) :
    (iblk0 V c 2 t : Vec Ideal S5000x1 .f32) (ix2 p (0 : Fin 1)) = (V c main_v24 : S50000x1.Idx → EReal) (ix2 (rowAt T p) (0 : Fin 1)) := by
  obtain ⟨-, -, -, -, e0, e1, -⟩ := idx0 t
  unfold iblk0
  rw [View.read_apply]
  show V c main_v24 _ = V c main_v24 _
  congr 1
  funext a
  apply Fin.ext
  match a with
  | ⟨0, _⟩ => show win0_2.index t 0 * 5000 + 1 * p.val = T.val * 5000 + p.val; rw [e0, hT]; omega
  | ⟨1, _⟩ => show win0_2.index t 1 * 1 + 1 * 0 = 0; rw [e1]

/-- The first weight matrix is staged whole. -/
theorem blk0_3 (c : Dev nD) (t : Fin cfg0.N) :
    (iblk0 V c 3 t : Vec Ideal S128x128 .f32) = (V c main_arg4 : S128x128.Idx → EReal) := by
  obtain ⟨-, -, -, -, -, -, e0, e1, -⟩ := idx0 t
  funext y
  unfold iblk0
  rw [View.read_apply]
  show V c main_arg4 _ = V c main_arg4 _
  congr 1
  funext a
  apply Fin.ext
  match a with
  | ⟨0, _⟩ => show win0_3.index t 0 * 128 + 1 * (y 0).val = (y 0).val; rw [e0]; omega
  | ⟨1, _⟩ => show win0_3.index t 1 * 128 + 1 * (y 1).val = (y 1).val; rw [e1]; omega

/-- The second weight matrix is staged whole. -/
theorem blk0_4 (c : Dev nD) (t : Fin cfg0.N) :
    (iblk0 V c 4 t : Vec Ideal S128x128 .f32) = (V c main_arg5 : S128x128.Idx → EReal) := by
  obtain ⟨-, -, -, -, -, -, -, -, e0, e1, -⟩ := idx0 t
  funext y
  unfold iblk0
  rw [View.read_apply]
  show V c main_arg5 _ = V c main_arg5 _
  congr 1
  funext a
  apply Fin.ext
  match a with
  | ⟨0, _⟩ => show win0_4.index t 0 * 128 + 1 * (y 0).val = (y 0).val; rw [e0]; omega
  | ⟨1, _⟩ => show win0_4.index t 1 * 128 + 1 * (y 1).val = (y 1).val; rw [e1]; omega

/-- The bias is staged whole. -/
theorem blk0_5 (c : Dev nD) (t : Fin cfg0.N) :
    (iblk0 V c 5 t : Vec Ideal S128 .f32) = (V c main_arg6 : S128.Idx → EReal) := by
  obtain ⟨-, -, -, -, -, -, -, -, -, -, e0, -⟩ := idx0 t
  funext y
  unfold iblk0
  rw [View.read_apply]
  show V c main_arg6 _ = V c main_arg6 _
  congr 1
  funext a
  apply Fin.ext
  match a with
  | ⟨0, _⟩ => show win0_5.index t 0 * 128 + 1 * (y 0).val = (y 0).val; rw [e0]; omega

/-- WHAT POINT `t` WRITES BACK is block `t` of `layer0` of the arrays as the launch finds them. -/
theorem flushed0 (c : Dev nD) (t : Fin cfg0.N) :
    (dat0 V c).flushed 6 t = ((cfg0.win 6).blk t).view.read (Elt Ideal)
      (layer0 (V c main_v13) (V c main_arg0) (V c main_v24) (V c main_arg4) (V c main_arg5) (V c main_arg6)) := by
  have hN : cfg0.N = 10 := N_0
  show (cfg0.win 6).cut (grid0.coords t) ((dat0 V c).after 6 t) = _
  rw [after0_6]
  unfold out0_6
  rw [View.canon_unit_zero hz2]
  simp only [View.ld_unit_zero (S := S5000x128) hz2, View.ld_unit_zero (S := S128x128) hz2, View.ld_unit_zero (S := S5000x1) hz2, View.ld_unit_zero (S := S128) hz1]
  obtain ⟨-, -, -, -, -, -, -, -, -, -, -, e0, e1⟩ := idx0 t
  funext j
  obtain ⟨p, q, rfl⟩ : ∃ (p : Fin 5000) (q : Fin 128), j = ix2 p q := ⟨j 0, j 1, eq_ix2 j⟩
  have hT : (⟨t.val, hN ▸ t.isLt⟩ : Fin 10).val = t.val := rfl
  refine (point0 (V c main_v13) (V c main_arg0) (V c main_v24) (V c main_arg4) (V c main_arg5) (V c main_arg6)
    (iblk0 V c 0 t) (iblk0 V c 1 t) (iblk0 V c 2 t) (iblk0 V c 3 t) (iblk0 V c 4 t) (iblk0 V c 5 t) ⟨t.val, hN ▸ t.isLt⟩
    (blk0_0 V c t _ hT) (blk0_1 V c t _ hT) (blk0_2 V c t _ hT) (blk0_3 V c t) (blk0_4 V c t) (blk0_5 V c t) p q).trans ?_
  show layer0 _ _ _ _ _ _ _ = layer0 _ _ _ _ _ _ (((cfg0.win 6).blk t).view.emb (ix2 p q))
  congr 1
  funext a
  apply Fin.ext
  match a with
  | ⟨0, _⟩ => show t.val * 5000 + p.val = win0_6.index t 0 * 5000 + 1 * p.val; rw [e0]; omega
  | ⟨1, _⟩ => show q.val = win0_6.index t 1 * 128 + 1 * q.val; rw [e1]; omega

/-- An index of the output is in point `t`'s block iff each coordinate is in the block's range on its axis. -/
theorem mem_blk0 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v25).slice (win0_6.rect t)).set ↔ _
  rw [View.set_slice_whole, Rect.mem_set_unit]
  exact Iff.rfl

/-- THE ARRAY after the launch: row `r` lies in the block of point `r / 5000`, so the ten write-backs cover the output
    and it ends holding `layer0` of the arrays the launch found. -/
theorem final0 (c : Dev nD) :
    (dat0 V c).arrAt 6 cfg0.N = layer0 (V c main_v13) (V c main_arg0) (V c main_v24) (V c main_arg4) (V c main_arg5) (V c main_arg6) :=
  (dat0 V c).arrAt_eq_of_cover 6 _ (fun t _ => flushed0 V c t) fun i => by
    have hN : cfg0.N = 10 := N_0
    have hi0 : (i 0).val < 50000 := (i 0).isLt
    have hi1 : (i 1).val < 128 := (i 1).isLt
    have hlt : (i 0).val / 5000 < cfg0.N := by rw [hN]; omega
    obtain ⟨-, -, -, -, -, -, -, -, -, -, -, e0, e1⟩ := idx0 ⟨(i 0).val / 5000, hlt⟩
    refine ⟨⟨(i 0).val / 5000, hlt⟩, flush0_6 _, ?_⟩
    rw [mem_blk0]
    intro a
    match a with
    | ⟨0, _⟩ => show win0_6.index ⟨(i 0).val / 5000, hlt⟩ 0 * 5000 ≤ (i 0).val ∧ (i 0).val < win0_6.index ⟨(i 0).val / 5000, hlt⟩ 0 * 5000 + 5000; rw [e0]; show (i 0).val / 5000 * 5000 ≤ (i 0).val ∧ (i 0).val < (i 0).val / 5000 * 5000 + 5000; omega
    | ⟨1, _⟩ => show win0_6.index ⟨(i 0).val / 5000, hlt⟩ 1 * 128 ≤ (i 1).val ∧ (i 1).val < win0_6.index ⟨(i 0).val / 5000, hlt⟩ 1 * 128 + 128; rw [e1]; omega

end Cert.Sage

end
-- ==== Proof.Region1.lean ====
/-
  The second launch, from blocks to the array.

  The launch walks ten grid points; point `t` stages rows `5000 t … 5000 t + 4999` of the neighbour sums, of the
  node features and of the per-node factors, the two weight matrices and the bias whole, and writes back the
  same rows of the output. Row `p` of what it writes depends only on row `p` of the staged blocks, so block `t`
  of the output is block `t` of ONE function of the whole arrays (`layer1`), and the ten blocks cover the output.
-/
import proofs.«173595_j60258391163614_2_alg».proof.Proof.Gen.KernelIdeal.Frame
import proofs.«173595_j60258391163614_2_alg».proof.Proof.Layers
import proofs.«173595_j60258391163614_2_alg».proof.Proof.Payload
import proofs.«173595_j60258391163614_2_alg».proof.Proof.Region0
import Idealize.ShloMosaic.Lib.Pipeline.Value
import Idealize.ShloMosaic.Lib.ValueIdx

set_option maxRecDepth 16384

noncomputable section

namespace Cert.Sage

open Cert.KernelIdeal Cert.KernelIdeal.Gen
open Idealize.ShloMosaic Idealize.ShloMosaic.TcCoe Idealize.SL.Sem Idealize.ShloMosaic.ValueIdx
open Idealize.ShloMosaic.Pipeline (Dat)

/-- What a point stores, from blocks that are rows `5000 T …` of the arrays (and the whole weights and bias):
    row `p`, column `q` of it is `layer1` of the arrays at row `5000 T + p`, column `q`. -/
theorem point1 (agg feat : S50000x128.Idx → EReal) (inv : S50000x1.Idx → EReal) (wl wr : S128x128.Idx → EReal) (b : S128.Idx → EReal)
    (x0 x1 : Vec Ideal S5000x128 .f32) (x2 : Vec Ideal S5000x1 .f32) (x3 x4 : Vec Ideal S128x128 .f32) (x5 : Vec Ideal S128 .f32)
    (T : Fin 10)
    (h0 : ∀ (p : Fin 5000) (k : Fin 128), x0 (ix2 p k) = agg (ix2 (rowAt T p) k))
    (h1 : ∀ (p : Fin 5000) (k : Fin 128), x1 (ix2 p k) = feat (ix2 (rowAt T p) k))
    (h2 : ∀ (p : Fin 5000), x2 (ix2 p (0 : Fin 1)) = inv (ix2 (rowAt T p) (0 : Fin 1)))
    (h3 : x3 = wl) (h4 : x4 = wr) (h5 : x5 = b) (p : Fin 5000) (q : Fin 128) :
    k1_pay1 (F := Ideal) x1 x0 x3 x4 x2 x5 (ix2 p q) = layer1 agg feat inv wl wr b (ix2 (rowAt T p) q) := by
  rw [pay1_apply]
  subst h3 h4 h5
  unfold layer1 scaledAfter
  simp only [h0, h1, h2]

variable (V : (c : Dev nD) → (b : Ref sig .tc) → Buf (Elt Ideal) ((c : Thread nD τ).loc b))

/-- The printed index maps over the grid: the row windows are at block `(t, 0)`, the weights and the bias at block zero. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Row `p` of the neighbour-sum block at point `t` is row `5000 t + p` of the array. -/
theorem blk1_0 (c : Dev nD) (t : Fin cfg1.N) (T : Fin 10) (hT : T.val = t.val) (p : Fin 5000) (k : Fin 128) :
    (iblk1 V c 0 t : Vec Ideal S5000x128 .f32) (ix2 p k) = (V c main_v39 : S50000x128.Idx → EReal) (ix2 (rowAt T p) k) := by
  obtain ⟨e0, e1, -⟩ := idx1 t
  unfold iblk1
  rw [View.read_apply]
  show V c main_v39 _ = V c main_v39 _
  congr 1
  funext a
  apply Fin.ext
  match a with
  | ⟨0, _⟩ => show win1_0.index t 0 * 5000 + 1 * p.val = T.val * 5000 + p.val; rw [e0, hT]; omega
  | ⟨1, _⟩ => show win1_0.index t 1 * 128 + 1 * k.val = k.val; rw [e1]; omega

/-- Row `p` of the feature block at point `t` is row `5000 t + p` of the array. -/
theorem blk1_1 (c : Dev nD) (t : Fin cfg1.N) (T : Fin 10) (hT : T.val = t.val) (p : Fin 5000) (k : Fin 128) :
    (iblk1 V c 1 t : Vec Ideal S5000x128 .f32) (ix2 p k) = (V c main_v25 : S50000x128.Idx → EReal) (ix2 (rowAt T p) k) := by
  obtain ⟨-, -, e0, e1, -⟩ := idx1 t
  unfold iblk1
  rw [View.read_apply]
  show V c main_v25 _ = V c main_v25 _
  congr 1
  funext a
  apply Fin.ext
  match a with
  | ⟨0, _⟩ => show win1_1.index t 0 * 5000 + 1 * p.val = T.val * 5000 + p.val; rw [e0, hT]; omega
  | ⟨1, _⟩ => show win1_1.index t 1 * 128 + 1 * k.val = k.val; rw [e1]; omega

/-- Entry `p` of the factor block at point `t` is entry `5000 t + p` of the column of factors. -/
theorem blk1_2 (c : Dev nD) (t : Fin cfg1.N) (T : Fin 10) (hT : T.val = t.val) (p : Fin 5000) :
    (iblk1 V c 2 t : Vec Ideal S5000x1 .f32) (ix2 p (0 : Fin 1)) = (V c main_v50 : S50000x1.Idx → EReal) (ix2 (rowAt T p) (0 : Fin 1)) := by
  obtain ⟨-, -, -, -, e0, e1, -⟩ := idx1 t
  unfold iblk1
  rw [View.read_apply]
  show V c main_v50 _ = V c main_v50 _
  congr 1
  funext a
  apply Fin.ext
  match a with
  | ⟨0, _⟩ => show win1_2.index t 0 * 5000 + 1 * p.val = T.val * 5000 + p.val; rw [e0, hT]; omega
  | ⟨1, _⟩ => show win1_2.index t 1 * 1 + 1 * 0 = 0; rw [e1]

/-- The first weight matrix is staged whole. -/
theorem blk1_3 (c : Dev nD) (t : Fin cfg1.N) :
    (iblk1 V c 3 t : Vec Ideal S128x128 .f32) = (V c main_arg7 : S128x128.Idx → EReal) := by
  obtain ⟨-, -, -, -, -, -, e0, e1, -⟩ := idx1 t
  funext y
  unfold iblk1
  rw [View.read_apply]
  show V c main_arg7 _ = V c main_arg7 _
  congr 1
  funext a
  apply Fin.ext
  match a with
  | ⟨0, _⟩ => show win1_3.index t 0 * 128 + 1 * (y 0).val = (y 0).val; rw [e0]; omega
  | ⟨1, _⟩ => show win1_3.index t 1 * 128 + 1 * (y 1).val = (y 1).val; rw [e1]; omega

/-- The second weight matrix is staged whole. -/
theorem blk1_4 (c : Dev nD) (t : Fin cfg1.N) :
    (iblk1 V c 4 t : Vec Ideal S128x128 .f32) = (V c main_arg8 : S128x128.Idx → EReal) := by
  obtain ⟨-, -, -, -, -, -, -, -, e0, e1, -⟩ := idx1 t
  funext y
  unfold iblk1
  rw [View.read_apply]
  show V c main_arg8 _ = V c main_arg8 _
  congr 1
  funext a
  apply Fin.ext
  match a with
  | ⟨0, _⟩ => show win1_4.index t 0 * 128 + 1 * (y 0).val = (y 0).val; rw [e0]; omega
  | ⟨1, _⟩ => show win1_4.index t 1 * 128 + 1 * (y 1).val = (y 1).val; rw [e1]; omega

/-- The bias is staged whole. -/
theorem blk1_5 (c : Dev nD) (t : Fin cfg1.N) :
    (iblk1 V c 5 t : Vec Ideal S128 .f32) = (V c main_arg9 : S128.Idx → EReal) := by
  obtain ⟨-, -, -, -, -, -, -, -, -, -, e0, -⟩ := idx1 t
  funext y
  unfold iblk1
  rw [View.read_apply]
  show V c main_arg9 _ = V c main_arg9 _
  congr 1
  funext a
  apply Fin.ext
  match a with
  | ⟨0, _⟩ => show win1_5.index t 0 * 128 + 1 * (y 0).val = (y 0).val; rw [e0]; omega

/-- WHAT POINT `t` WRITES BACK is block `t` of `layer1` of the arrays as the launch finds them. -/
theorem flushed1 (c : Dev nD) (t : Fin cfg1.N) :
    (dat1 V c).flushed 6 t = ((cfg1.win 6).blk t).view.read (Elt Ideal)
      (layer1 (V c main_v39) (V c main_v25) (V c main_v50) (V c main_arg7) (V c main_arg8) (V c main_arg9)) := by
  have hN : cfg1.N = 10 := N_1
  show (cfg1.win 6).cut (grid1.coords t) ((dat1 V c).after 6 t) = _
  rw [after1_6]
  unfold out1_6
  rw [View.canon_unit_zero hz2]
  simp only [View.ld_unit_zero (S := S5000x128) hz2, View.ld_unit_zero (S := S128x128) hz2, View.ld_unit_zero (S := S5000x1) hz2, View.ld_unit_zero (S := S128) hz1]
  obtain ⟨-, -, -, -, -, -, -, -, -, -, -, e0, e1⟩ := idx1 t
  funext j
  obtain ⟨p, q, rfl⟩ : ∃ (p : Fin 5000) (q : Fin 128), j = ix2 p q := ⟨j 0, j 1, eq_ix2 j⟩
  have hT : (⟨t.val, hN ▸ t.isLt⟩ : Fin 10).val = t.val := rfl
  refine (point1 (V c main_v39) (V c main_v25) (V c main_v50) (V c main_arg7) (V c main_arg8) (V c main_arg9)
    (iblk1 V c 0 t) (iblk1 V c 1 t) (iblk1 V c 2 t) (iblk1 V c 3 t) (iblk1 V c 4 t) (iblk1 V c 5 t) ⟨t.val, hN ▸ t.isLt⟩
    (blk1_0 V c t _ hT) (blk1_1 V c t _ hT) (blk1_2 V c t _ hT) (blk1_3 V c t) (blk1_4 V c t) (blk1_5 V c t) p q).trans ?_
  show layer1 _ _ _ _ _ _ _ = layer1 _ _ _ _ _ _ (((cfg1.win 6).blk t).view.emb (ix2 p q))
  congr 1
  funext a
  apply Fin.ext
  match a with
  | ⟨0, _⟩ => show t.val * 5000 + p.val = win1_6.index t 0 * 5000 + 1 * p.val; rw [e0]; omega
  | ⟨1, _⟩ => show q.val = win1_6.index t 1 * 128 + 1 * q.val; rw [e1]; omega

/-- An index of the output is in point `t`'s block iff each coordinate is in the block's range on its axis. -/
theorem mem_blk1 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v51).slice (win1_6.rect t)).set ↔ _
  rw [View.set_slice_whole, Rect.mem_set_unit]
  exact Iff.rfl

/-- THE ARRAY after the launch: row `r` lies in the block of point `r / 5000`, so the ten write-backs cover the output
    and it ends holding `layer1` of the arrays the launch found. -/
theorem final1 (c : Dev nD) :
    (dat1 V c).arrAt 6 cfg1.N = layer1 (V c main_v39) (V c main_v25) (V c main_v50) (V c main_arg7) (V c main_arg8) (V c main_arg9) :=
  (dat1 V c).arrAt_eq_of_cover 6 _ (fun t _ => flushed1 V c t) fun i => by
    have hN : cfg1.N = 10 := N_1
    have hi0 : (i 0).val < 50000 := (i 0).isLt
    have hi1 : (i 1).val < 128 := (i 1).isLt
    have hlt : (i 0).val / 5000 < cfg1.N := by rw [hN]; omega
    obtain ⟨-, -, -, -, -, -, -, -, -, -, -, e0, e1⟩ := idx1 ⟨(i 0).val / 5000, hlt⟩
    refine ⟨⟨(i 0).val / 5000, hlt⟩, flush1_6 _, ?_⟩
    rw [mem_blk1]
    intro a
    match a with
    | ⟨0, _⟩ => show win1_6.index ⟨(i 0).val / 5000, hlt⟩ 0 * 5000 ≤ (i 0).val ∧ (i 0).val < win1_6.index ⟨(i 0).val / 5000, hlt⟩ 0 * 5000 + 5000; rw [e0]; show (i 0).val / 5000 * 5000 ≤ (i 0).val ∧ (i 0).val < (i 0).val / 5000 * 5000 + 5000; omega
    | ⟨1, _⟩ => show win1_6.index ⟨(i 0).val / 5000, hlt⟩ 1 * 128 ≤ (i 1).val ∧ (i 1).val < win1_6.index ⟨(i 0).val / 5000, hlt⟩ 1 * 128 + 128; rw [e1]; omega

end Cert.Sage

end
-- ==== Proof.Region2.lean ====
/-
  The third launch, from blocks to the array.

  The launch walks ten grid points; point `t` stages rows `5000 t … 5000 t + 4999` of the neighbour sums, of the
  node features and of the per-node factors, the two weight matrices and the bias whole, and writes back the
  same rows of the output. Row `p` of what it writes depends only on row `p` of the staged blocks, so block `t`
  of the output is block `t` of ONE function of the whole arrays (`layer2`), and the ten blocks cover the output.
-/
import proofs.«173595_j60258391163614_2_alg».proof.Proof.Gen.KernelIdeal.Frame
import proofs.«173595_j60258391163614_2_alg».proof.Proof.Layers
import proofs.«173595_j60258391163614_2_alg».proof.Proof.Payload
import proofs.«173595_j60258391163614_2_alg».proof.Proof.Region0
import Idealize.ShloMosaic.Lib.Pipeline.Value
import Idealize.ShloMosaic.Lib.ValueIdx

set_option maxRecDepth 16384

noncomputable section

namespace Cert.Sage

open Cert.KernelIdeal Cert.KernelIdeal.Gen
open Idealize.ShloMosaic Idealize.ShloMosaic.TcCoe Idealize.SL.Sem Idealize.ShloMosaic.ValueIdx
open Idealize.ShloMosaic.Pipeline (Dat)

/-- What a point stores, from blocks that are rows `5000 T …` of the arrays (and the whole weights and bias):
    row `p`, column `q` of it is `layer2` of the arrays at row `5000 T + p`, column `q`. -/
theorem point2 (agg feat : S50000x128.Idx → EReal) (inv : S50000x1.Idx → EReal) (wl wr : S128x64.Idx → EReal) (b : S64.Idx → EReal)
    (x0 x1 : Vec Ideal S5000x128 .f32) (x2 : Vec Ideal S5000x1 .f32) (x3 x4 : Vec Ideal S128x64 .f32) (x5 : Vec Ideal S64 .f32)
    (T : Fin 10)
    (h0 : ∀ (p : Fin 5000) (k : Fin 128), x0 (ix2 p k) = agg (ix2 (rowAt T p) k))
    (h1 : ∀ (p : Fin 5000) (k : Fin 128), x1 (ix2 p k) = feat (ix2 (rowAt T p) k))
    (h2 : ∀ (p : Fin 5000), x2 (ix2 p (0 : Fin 1)) = inv (ix2 (rowAt T p) (0 : Fin 1)))
    (h3 : x3 = wl) (h4 : x4 = wr) (h5 : x5 = b) (p : Fin 5000) (q : Fin 64) :
    k2_pay1 (F := Ideal) x1 x0 x3 x4 x2 x5 (ix2 p q) = layer2 agg feat inv wl wr b (ix2 (rowAt T p) q) := by
  rw [pay2_apply]
  subst h3 h4 h5
  unfold layer2 scaledAfter
  simp only [h0, h1, h2]

variable (V : (c : Dev nD) → (b : Ref sig .tc) → Buf (Elt Ideal) ((c : Thread nD τ).loc b))

/-- The printed index maps over the grid: the row windows are at block `(t, 0)`, the weights and the bias at block zero. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- Row `p` of the neighbour-sum block at point `t` is row `5000 t + p` of the array. -/
theorem blk2_0 (c : Dev nD) (t : Fin cfg2.N) (T : Fin 10) (hT : T.val = t.val) (p : Fin 5000) (k : Fin 128) :
    (iblk2 V c 0 t : Vec Ideal S5000x128 .f32) (ix2 p k) = (V c main_v65 : S50000x128.Idx → EReal) (ix2 (rowAt T p) k) := by
  obtain ⟨e0, e1, -⟩ := idx2 t
  unfold iblk2
  rw [View.read_apply]
  show V c main_v65 _ = V c main_v65 _
  congr 1
  funext a
  apply Fin.ext
  match a with
  | ⟨0, _⟩ => show win2_0.index t 0 * 5000 + 1 * p.val = T.val * 5000 + p.val; rw [e0, hT]; omega
  | ⟨1, _⟩ => show win2_0.index t 1 * 128 + 1 * k.val = k.val; rw [e1]; omega

/-- Row `p` of the feature block at point `t` is row `5000 t + p` of the array. -/
theorem blk2_1 (c : Dev nD) (t : Fin cfg2.N) (T : Fin 10) (hT : T.val = t.val) (p : Fin 5000) (k : Fin 128) :
    (iblk2 V c 1 t : Vec Ideal S5000x128 .f32) (ix2 p k) = (V c main_v51 : S50000x128.Idx → EReal) (ix2 (rowAt T p) k) := by
  obtain ⟨-, -, e0, e1, -⟩ := idx2 t
  unfold iblk2
  rw [View.read_apply]
  show V c main_v51 _ = V c main_v51 _
  congr 1
  funext a
  apply Fin.ext
  match a with
  | ⟨0, _⟩ => show win2_1.index t 0 * 5000 + 1 * p.val = T.val * 5000 + p.val; rw [e0, hT]; omega
  | ⟨1, _⟩ => show win2_1.index t 1 * 128 + 1 * k.val = k.val; rw [e1]; omega

/-- Entry `p` of the factor block at point `t` is entry `5000 t + p` of the column of factors. -/
theorem blk2_2 (c : Dev nD) (t : Fin cfg2.N) (T : Fin 10) (hT : T.val = t.val) (p : Fin 5000) :
    (iblk2 V c 2 t : Vec Ideal S5000x1 .f32) (ix2 p (0 : Fin 1)) = (V c main_v76 : S50000x1.Idx → EReal) (ix2 (rowAt T p) (0 : Fin 1)) := by
  obtain ⟨-, -, -, -, e0, e1, -⟩ := idx2 t
  unfold iblk2
  rw [View.read_apply]
  show V c main_v76 _ = V c main_v76 _
  congr 1
  funext a
  apply Fin.ext
  match a with
  | ⟨0, _⟩ => show win2_2.index t 0 * 5000 + 1 * p.val = T.val * 5000 + p.val; rw [e0, hT]; omega
  | ⟨1, _⟩ => show win2_2.index t 1 * 1 + 1 * 0 = 0; rw [e1]

/-- The first weight matrix is staged whole. -/
theorem blk2_3 (c : Dev nD) (t : Fin cfg2.N) :
    (iblk2 V c 3 t : Vec Ideal S128x64 .f32) = (V c main_arg10 : S128x64.Idx → EReal) := by
  obtain ⟨-, -, -, -, -, -, e0, e1, -⟩ := idx2 t
  funext y
  unfold iblk2
  rw [View.read_apply]
  show V c main_arg10 _ = V c main_arg10 _
  congr 1
  funext a
  apply Fin.ext
  match a with
  | ⟨0, _⟩ => show win2_3.index t 0 * 128 + 1 * (y 0).val = (y 0).val; rw [e0]; omega
  | ⟨1, _⟩ => show win2_3.index t 1 * 64 + 1 * (y 1).val = (y 1).val; rw [e1]; omega

/-- The second weight matrix is staged whole. -/
theorem blk2_4 (c : Dev nD) (t : Fin cfg2.N) :
    (iblk2 V c 4 t : Vec Ideal S128x64 .f32) = (V c main_arg11 : S128x64.Idx → EReal) := by
  obtain ⟨-, -, -, -, -, -, -, -, e0, e1, -⟩ := idx2 t
  funext y
  unfold iblk2
  rw [View.read_apply]
  show V c main_arg11 _ = V c main_arg11 _
  congr 1
  funext a
  apply Fin.ext
  match a with
  | ⟨0, _⟩ => show win2_4.index t 0 * 128 + 1 * (y 0).val = (y 0).val; rw [e0]; omega
  | ⟨1, _⟩ => show win2_4.index t 1 * 64 + 1 * (y 1).val = (y 1).val; rw [e1]; omega

/-- The bias is staged whole. -/
theorem blk2_5 (c : Dev nD) (t : Fin cfg2.N) :
    (iblk2 V c 5 t : Vec Ideal S64 .f32) = (V c main_arg12 : S64.Idx → EReal) := by
  obtain ⟨-, -, -, -, -, -, -, -, -, -, e0, -⟩ := idx2 t
  funext y
  unfold iblk2
  rw [View.read_apply]
  show V c main_arg12 _ = V c main_arg12 _
  congr 1
  funext a
  apply Fin.ext
  match a with
  | ⟨0, _⟩ => show win2_5.index t 0 * 64 + 1 * (y 0).val = (y 0).val; rw [e0]; omega

/-- WHAT POINT `t` WRITES BACK is block `t` of `layer2` of the arrays as the launch finds them. -/
theorem flushed2 (c : Dev nD) (t : Fin cfg2.N) :
    (dat2 V c).flushed 6 t = ((cfg2.win 6).blk t).view.read (Elt Ideal)
      (layer2 (V c main_v65) (V c main_v51) (V c main_v76) (V c main_arg10) (V c main_arg11) (V c main_arg12)) := by
  have hN : cfg2.N = 10 := N_2
  show (cfg2.win 6).cut (grid2.coords t) ((dat2 V c).after 6 t) = _
  rw [after2_6]
  unfold out2_6
  rw [View.canon_unit_zero hz2]
  simp only [View.ld_unit_zero (S := S5000x128) hz2, View.ld_unit_zero (S := S128x64) hz2, View.ld_unit_zero (S := S5000x1) hz2, View.ld_unit_zero (S := S64) hz1]
  obtain ⟨-, -, -, -, -, -, -, -, -, -, -, e0, e1⟩ := idx2 t
  funext j
  obtain ⟨p, q, rfl⟩ : ∃ (p : Fin 5000) (q : Fin 64), j = ix2 p q := ⟨j 0, j 1, eq_ix2 j⟩
  have hT : (⟨t.val, hN ▸ t.isLt⟩ : Fin 10).val = t.val := rfl
  refine (point2 (V c main_v65) (V c main_v51) (V c main_v76) (V c main_arg10) (V c main_arg11) (V c main_arg12)
    (iblk2 V c 0 t) (iblk2 V c 1 t) (iblk2 V c 2 t) (iblk2 V c 3 t) (iblk2 V c 4 t) (iblk2 V c 5 t) ⟨t.val, hN ▸ t.isLt⟩
    (blk2_0 V c t _ hT) (blk2_1 V c t _ hT) (blk2_2 V c t _ hT) (blk2_3 V c t) (blk2_4 V c t) (blk2_5 V c t) p q).trans ?_
  show layer2 _ _ _ _ _ _ _ = layer2 _ _ _ _ _ _ (((cfg2.win 6).blk t).view.emb (ix2 p q))
  congr 1
  funext a
  apply Fin.ext
  match a with
  | ⟨0, _⟩ => show t.val * 5000 + p.val = win2_6.index t 0 * 5000 + 1 * p.val; rw [e0]; omega
  | ⟨1, _⟩ => show q.val = win2_6.index t 1 * 64 + 1 * q.val; rw [e1]; omega

/-- An index of the output is in point `t`'s block iff each coordinate is in the block's range on its axis. -/
theorem mem_blk2 (t : Fin cfg2.N) (i : S50000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v77).slice (win2_6.rect t)).set ↔ _
  rw [View.set_slice_whole, Rect.mem_set_unit]
  exact Iff.rfl

/-- THE ARRAY after the launch: row `r` lies in the block of point `r / 5000`, so the ten write-backs cover the output
    and it ends holding `layer2` of the arrays the launch found. -/
theorem final2 (c : Dev nD) :
    (dat2 V c).arrAt 6 cfg2.N = layer2 (V c main_v65) (V c main_v51) (V c main_v76) (V c main_arg10) (V c main_arg11) (V c main_arg12) :=
  (dat2 V c).arrAt_eq_of_cover 6 _ (fun t _ => flushed2 V c t) fun i => by
    have hN : cfg2.N = 10 := N_2
    have hi0 : (i 0).val < 50000 := (i 0).isLt
    have hi1 : (i 1).val < 64 := (i 1).isLt
    have hlt : (i 0).val / 5000 < cfg2.N := by rw [hN]; omega
    obtain ⟨-, -, -, -, -, -, -, -, -, -, -, e0, e1⟩ := idx2 ⟨(i 0).val / 5000, hlt⟩
    refine ⟨⟨(i 0).val / 5000, hlt⟩, flush2_6 _, ?_⟩
    rw [mem_blk2]
    intro a
    match a with
    | ⟨0, _⟩ => show win2_6.index ⟨(i 0).val / 5000, hlt⟩ 0 * 5000 ≤ (i 0).val ∧ (i 0).val < win2_6.index ⟨(i 0).val / 5000, hlt⟩ 0 * 5000 + 5000; rw [e0]; show (i 0).val / 5000 * 5000 ≤ (i 0).val ∧ (i 0).val < (i 0).val / 5000 * 5000 + 5000; omega
    | ⟨1, _⟩ => show win2_6.index ⟨(i 0).val / 5000, hlt⟩ 1 * 64 ≤ (i 1).val ∧ (i 1).val < win2_6.index ⟨(i 0).val / 5000, hlt⟩ 1 * 64 + 64; rw [e1]; omega

end Cert.Sage

end
-- ==== Proof.RefLayer.lean ====
/-
  The reference's layer term read at one node and one output feature.

  The reference computes a layer on the whole `[50000, 128]` array: it spreads the per-node divisor over the feature
  axis, divides the neighbour sum by it entrywise, multiplies by the first weight matrix, adds the bias spread over the
  nodes, and adds the product of the node features with the second weight matrix. On the extended reals a whole-array
  product is, entry by entry, a plain sum over the 128 shared coordinates, and every other operation acts entry by
  entry or only moves entries; so at node `r` and output feature `j` the term is the divide-then-contract form
  `dividedBefore` of `Layer.lean`. The statements take the operands as variables, so one lemma serves every layer of that
  width. The two constant arrays the reference builds (all ones, all zeros) are read at an index as well.
-/
import proofs.«173595_j60258391163614_2_alg».proof.Proof.Gen.ReferenceIdeal.Read
import proofs.«173595_j60258391163614_2_alg».proof.Proof.Layer
import Idealize.ShloMosaic.Lib.ValueIdx
import Idealize.ShloMosaic.Lib.Pipeline.Value
import Idealize.ShloMosaic.PureOps.Ideal.Laws

noncomputable section

namespace Cert.Sage.Ref

open Cert.ReferenceIdeal Idealize.ShloMosaic Idealize.ShloMosaic.ValueIdx Cert.Sage
open Cert.ReferenceIdeal.Facts₀

/-! ## A whole-array product at an entry -/

/-- The contraction's left index at output `(r, j)` keeps the row. -/
theorem dot128_lhs0 (i : S50000x128.Idx) (q : dot_S50000x128_S128x128_S50000x128_1_0_0_1_n_n.contr.Idx) : (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
/-- The contraction's right index at output `(r, j)` keeps the column. -/
theorem dot128_rhs1 (i : S50000x128.Idx) (q : dot_S50000x128_S128x128_S50000x128_1_0_0_1_n_n.contr.Idx) : (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- A whole-array product of a `[50000,128]` array with a `[128,128]` matrix, read at row `r` and column `j`: the sum over
    the 128 shared coordinates of the row's entry times the column's. -/
theorem dot128_apply (l : FVec Ideal S50000x128 .f32) (w : FVec Ideal S128x128 .f32) (r : Fin 50000) (j : Fin 128) :
    Host.dotGeneral (F := Ideal) dot_S50000x128_S128x128_S50000x128_1_0_0_1_n_n none l w (ix2 r j) = ∑ k : Fin 128, l (ix2 r k) * w (ix2 k j) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 r j) ((ValueIdx.contrEquiv1 dot_S50000x128_S128x128_S50000x128_1_0_0_1_n_n 128 rfl rfl).symm k) = ix2 r k := funext fun a => Fin.ext (by
    match a with
    | ⟨0, _⟩ => exact dot128_lhs0 _ _
    | ⟨1, _⟩ => exact (dot_S50000x128_S128x128_S50000x128_1_0_0_1_n_n.lhsIdx_val_of_single rfl _ _).trans hk)
  have er : dot_S50000x128_S128x128_S50000x128_1_0_0_1_n_n.rhsIdx (ix2 r j) ((ValueIdx.contrEquiv1 dot_S50000x128_S128x128_S50000x128_1_0_0_1_n_n 128 rfl rfl).symm k) = ix2 k j := funext fun a => Fin.ext (by
    match a with
    | ⟨0, _⟩ => exact (dot_S50000x128_S128x128_S50000x128_1_0_0_1_n_n.rhsIdx_val_of_single rfl _ _).trans hk
    | ⟨1, _⟩ => exact dot128_rhs1 _ _)
  rw [el, er]

/-- The contraction's left index at output `(r, j)` keeps the row. -/
theorem dot64_lhs0 (i : S50000x64.Idx) (q : dot_S50000x128_S128x64_S50000x64_1_0_0_1_n_n.contr.Idx) : (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
/-- The contraction's right index at output `(r, j)` keeps the column. -/
theorem dot64_rhs1 (i : S50000x64.Idx) (q : dot_S50000x128_S128x64_S50000x64_1_0_0_1_n_n.contr.Idx) : (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- A whole-array product of a `[50000,128]` array with a `[128,64]` matrix, read at row `r` and column `j`: the sum over
    the 128 shared coordinates of the row's entry times the column's. -/
theorem dot64_apply (l : FVec Ideal S50000x128 .f32) (w : FVec Ideal S128x64 .f32) (r : Fin 50000) (j : Fin 64) :
    Host.dotGeneral (F := Ideal) dot_S50000x128_S128x64_S50000x64_1_0_0_1_n_n none l w (ix2 r j) = ∑ k : Fin 128, l (ix2 r k) * w (ix2 k j) := by
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx (ix2 r j) ((ValueIdx.contrEquiv1 dot_S50000x128_S128x64_S50000x64_1_0_0_1_n_n 128 rfl rfl).symm k) = ix2 r k := funext fun a => Fin.ext (by
    match a with
    | ⟨0, _⟩ => exact dot64_lhs0 _ _
    | ⟨1, _⟩ => exact (dot_S50000x128_S128x64_S50000x64_1_0_0_1_n_n.lhsIdx_val_of_single rfl _ _).trans hk)
  have er : dot_S50000x128_S128x64_S50000x64_1_0_0_1_n_n.rhsIdx (ix2 r j) ((ValueIdx.contrEquiv1 dot_S50000x128_S128x64_S50000x64_1_0_0_1_n_n 128 rfl rfl).symm k) = ix2 k j := funext fun a => Fin.ext (by
    match a with
    | ⟨0, _⟩ => exact (dot_S50000x128_S128x64_S50000x64_1_0_0_1_n_n.rhsIdx_val_of_single rfl _ _).trans hk
    | ⟨1, _⟩ => exact dot64_rhs1 _ _)
  rw [el, er]

/-! ## The spread arrays at an entry -/

/-- The per-node divisor `[50000]`, made a column and spread over the 128 features, read at `(r, k)` is the node's divisor. -/
theorem divisor_apply (dm : FVec Ideal S50000 .f32) (r : Fin 50000) (k : Fin 128) :
    broadcastInDim S50000x128 ![0, 1] bcast_S50000x1_S50000x128_0_1 (broadcastInDim S50000x1 ![0] bcast_S50000_S50000x1_0 dm) (ix2 r k) = dm (ix1 r) := by
  refine (broadcastInDim_apply _ bcast_S50000x1_S50000x128_0_1 _ (ix2 r k) (ix2 r (0 : Fin 1)) (fun a => match a with
    | ⟨0, _⟩ => by show r.val = if (50000 : Nat) = 1 then 0 else r.val; rw [if_neg (by decide)]
    | ⟨1, _⟩ => by show 0 = if (1 : Nat) = 1 then 0 else k.val; rw [if_pos rfl])).trans ?_
  exact broadcastInDim_apply _ bcast_S50000_S50000x1_0 dm (ix2 r (0 : Fin 1)) (ix1 r) (fun a => match a with
    | ⟨0, _⟩ => by show r.val = if (50000 : Nat) = 1 then 0 else r.val; rw [if_neg (by decide)])

/-- The bias `[128]`, spread over every node, read at `(r, j)` is its entry `j`. -/
theorem bias128_apply (b : FVec Ideal S128 .f32) (r : Fin 50000) (j : Fin 128) :
    broadcastInDim S50000x128 ![0, 1] bcast_S1x128_S50000x128_0_1 (broadcastInDim S1x128 ![1] bcast_S128_S1x128_1 b) (ix2 r j) = b (ix1 j) := by
  refine (broadcastInDim_apply _ bcast_S1x128_S50000x128_0_1 _ (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])).trans ?_
  exact broadcastInDim_apply _ bcast_S128_S1x128_1 b (ix2 (0 : Fin 1) j) (ix1 j) (fun a => match a with
    | ⟨0, _⟩ => by show j.val = if (128 : Nat) = 1 then 0 else j.val; rw [if_neg (by decide)])

/-- The bias `[64]`, spread over every node, read at `(r, j)` is its entry `j`. -/
theorem bias64_apply (b : FVec Ideal S64 .f32) (r : Fin 50000) (j : Fin 64) :
    broadcastInDim S50000x64 ![0, 1] bcast_S1x64_S50000x64_0_1 (broadcastInDim S1x64 ![1] bcast_S64_S1x64_1 b) (ix2 r j) = b (ix1 j) := by
  refine (broadcastInDim_apply _ bcast_S1x64_S50000x64_0_1 _ (ix2 r j) (ix2 (0 : Fin 1) j) (fun a => match a with
    | ⟨0, _⟩ => by show 0 = if (1 : Nat) = 1 then 0 else r.val; rw [if_pos rfl]
    | ⟨1, _⟩ => by show j.val = if (64 : Nat) = 1 then 0 else j.val; rw [if_neg (by decide)])).trans ?_
  exact broadcastInDim_apply _ bcast_S64_S1x64_1 b (ix2 (0 : Fin 1) j) (ix1 j) (fun a => match a with
    | ⟨0, _⟩ => by show j.val = if (64 : Nat) = 1 then 0 else j.val; rw [if_neg (by decide)])

/-! ## The layer term -/

/-- One layer before its activation, exactly as the reference spells it (lines %23-%30 of its `@main`): the neighbour sum divided by
    the per-node divisor spread over the 128 features, contracted with `wl`; plus the bias spread over the nodes; plus the
    node's own features contracted with `wr`. -/
def pre128 (agg feat : FVec Ideal S50000x128 .f32) (dm : FVec Ideal S50000 .f32) (wl wr : FVec Ideal S128x128 .f32)
    (b : FVec Ideal S128 .f32) : FVec Ideal S50000x128 .f32 :=
  addf (addf (Host.dotGeneral (F := Ideal) dot_S50000x128_S128x128_S50000x128_1_0_0_1_n_n none
          (Host.divf (F := Ideal) agg (broadcastInDim S50000x128 ![0, 1] bcast_S50000x1_S50000x128_0_1 (broadcastInDim S50000x1 ![0] bcast_S50000_S50000x1_0 dm))) wl)
        (broadcastInDim S50000x128 ![0, 1] bcast_S1x128_S50000x128_0_1 (broadcastInDim S1x128 ![1] bcast_S128_S1x128_1 b)))
    (Host.dotGeneral (F := Ideal) dot_S50000x128_S128x128_S50000x128_1_0_0_1_n_n none feat wr)

/-- At node `r` and output feature `j` the reference's layer term is the divide-then-contract form. -/
theorem pre128_apply (agg feat : FVec Ideal S50000x128 .f32) (dm : FVec Ideal S50000 .f32) (wl wr : FVec Ideal S128x128 .f32)
    (b : FVec Ideal S128 .f32) (r : Fin 50000) (j : Fin 128) :
    pre128 agg feat dm wl wr b (ix2 r j) = dividedBefore agg feat dm wl wr b r j := by
  unfold pre128 dividedBefore
  rw [addf_apply, addf_apply, dot128_apply, dot128_apply, bias128_apply]
  refine congrArg (· + _) (congrArg (· + _) (Finset.sum_congr rfl fun k _ => ?_))
  show Ideal.div (agg (ix2 r k)) _ * wl (ix2 k j) = _
  rw [divisor_apply]

/-- One layer before its activation, exactly as the reference spells it (the last layer's lines of its `@main`): the neighbour sum divided by
    the per-node divisor spread over the 128 features, contracted with `wl`; plus the bias spread over the nodes; plus the
    node's own features contracted with `wr`. -/
def pre64 (agg feat : FVec Ideal S50000x128 .f32) (dm : FVec Ideal S50000 .f32) (wl wr : FVec Ideal S128x64 .f32)
    (b : FVec Ideal S64 .f32) : FVec Ideal S50000x64 .f32 :=
  addf (addf (Host.dotGeneral (F := Ideal) dot_S50000x128_S128x64_S50000x64_1_0_0_1_n_n none
          (Host.divf (F := Ideal) agg (broadcastInDim S50000x128 ![0, 1] bcast_S50000x1_S50000x128_0_1 (broadcastInDim S50000x1 ![0] bcast_S50000_S50000x1_0 dm))) wl)
        (broadcastInDim S50000x64 ![0, 1] bcast_S1x64_S50000x64_0_1 (broadcastInDim S1x64 ![1] bcast_S64_S1x64_1 b)))
    (Host.dotGeneral (F := Ideal) dot_S50000x128_S128x64_S50000x64_1_0_0_1_n_n none feat wr)

/-- At node `r` and output feature `j` the reference's layer term is the divide-then-contract form. -/
theorem pre64_apply (agg feat : FVec Ideal S50000x128 .f32) (dm : FVec Ideal S50000 .f32) (wl wr : FVec Ideal S128x64 .f32)
    (b : FVec Ideal S64 .f32) (r : Fin 50000) (j : Fin 64) :
    pre64 agg feat dm wl wr b (ix2 r j) = dividedBefore agg feat dm wl wr b r j := by
  unfold pre64 dividedBefore
  rw [addf_apply, addf_apply, dot64_apply, dot64_apply, bias64_apply]
  refine congrArg (· + _) (congrArg (· + _) (Finset.sum_congr rfl fun k _ => ?_))
  show Ideal.div (agg (ix2 r k)) _ * wl (ix2 k j) = _
  rw [divisor_apply]

/-! ## The constant arrays -/

/-- The array of ones the reference floors the in-degree with, at any node: the pattern of `1.0`. -/
theorem ones_apply (i : S50000.Idx) :
    (broadcastInDim S50000 ![] bcast_S_S50000 (constant (F := Ideal) S_ .f32 0x3F800000#32) : FVec Ideal S50000 .f32) i = one32 :=
  broadcastInDim_apply _ bcast_S_S50000 _ i (fun a => a.elim0) (fun a => a.elim0)

/-- The array of zeros the reference accumulates the neighbour sums into, at any entry: the pattern of `0.0`. -/
theorem zeros128_apply (i : S50000x128.Idx) :
    (broadcastInDim S50000x128 ![] bcast_S_S50000x128 (constant (F := Ideal) S_ .f32 0x00000000#32) : FVec Ideal S50000x128 .f32) i
      = Ideal.ofBits .f32 0x00000000#32 :=
  broadcastInDim_apply _ bcast_S_S50000x128 _ i (fun a => a.elim0) (fun a => a.elim0)

end Cert.Sage.Ref

end
-- ==== Proof.HostFns.lean ====
/-
  The part of a layer that both programs compute on the host with the same operations, as functions.

  From the node features `x` and the edge list `ei` (row 0 the sources, row 1 the targets; a negative index counts
  from the end): `nbrSum x ei` adds, into every target node's row, the source node's feature row of each of its
  incoming edges; `floorDeg ei` is the number of incoming edges of each node, floored at one. One program
  divides the neighbour sums by `floorDeg` directly; the other first forms the column `invDeg ei` of the
  reciprocals `1 / floorDeg` and hands it to the layer kernel. Neither sum is ever opened: only that the
  divisor is a maximum with one matters.
-/
import proofs.«173595_j60258391163614_2_alg».proof.Proof.Gen.ReferenceIdeal.Read
import proofs.«173595_j60258391163614_2_alg».proof.Proof.Gen.KernelIdeal
import proofs.«173595_j60258391163614_2_alg».proof.Proof.RefLayer
import Idealize.ShloMosaic.Lib.Pipeline.Value
import Idealize.ShloMosaic.Lib.ValueIdx

noncomputable section

namespace Cert.Sage

open Cert.ReferenceIdeal Idealize.ShloMosaic Idealize.ShloMosaic.ValueIdx

/-- The sum, into each target node's row, of the source rows of its incoming edges. -/
def nbrSum (x : FVec Ideal S50000x128 .f32) (ei : (⟨S2x800000, .i32⟩ : BufTy).Contents (Elt Ideal)) : FVec Ideal S50000x128 .f32 :=
  Cert.ReferenceIdeal.Read.val_main_v13 (F := Ideal) x ei

/-- The number of incoming edges of each node (a sum of ones). -/
def inDeg (ei : (⟨S2x800000, .i32⟩ : BufTy).Contents (Elt Ideal)) : FVec Ideal S50000 .f32 :=
  Cert.ReferenceIdeal.Read.val_main_v19 (F := Ideal) ei

/-- The in-degree floored at one. -/
def floorDeg (ei : (⟨S2x800000, .i32⟩ : BufTy).Contents (Elt Ideal)) : FVec Ideal S50000 .f32 :=
  Cert.ReferenceIdeal.Read.val_main_v21 (F := Ideal) ei

/-- The column of reciprocals of the floored in-degree. -/
def invDeg (ei : (⟨S2x800000, .i32⟩ : BufTy).Contents (Elt Ideal)) : FVec Ideal S50000x1 .f32 :=
  shapeCast S50000x1 (Host.divf (Cert.ReferenceIdeal.Read.val_main_v20 (F := Ideal)) (floorDeg ei))
    Cert.KernelIdeal.Facts₀.shapeCasts_S50000_S50000x1

/-- The array of ones, at an entry. -/
theorem ones_at (i : S50000.Idx) : Cert.ReferenceIdeal.Read.val_main_v20 (F := Ideal) i = one32 :=
  Cert.Sage.Ref.ones_apply i

/-- An entrywise maximum of two arrays, at an entry. -/
theorem maximumf_at (a b : FVec Ideal S50000 .f32) (i : S50000.Idx) : maximumf a b i = max (a i) (b i) := rfl

/-- An entrywise quotient of two arrays, at an entry. -/
theorem divf_at (a b : FVec Ideal S50000 .f32) (i : S50000.Idx) : Host.divf a b i = Ideal.div (a i) (b i) := rfl

/-- The floored in-degree of node `r` is the maximum of its in-degree and one. -/
theorem floorDeg_apply (ei : (⟨S2x800000, .i32⟩ : BufTy).Contents (Elt Ideal)) (r : Fin 50000) :
    floorDeg ei (ix1 r) = max (inDeg ei (ix1 r)) one32 := by
  unfold floorDeg inDeg Cert.ReferenceIdeal.Read.val_main_v21
  rw [maximumf_at, ones_at]

/-- Entry `r` of the column of reciprocals is one divided by node `r`'s floored in-degree. -/
theorem invDeg_apply (ei : (⟨S2x800000, .i32⟩ : BufTy).Contents (Elt Ideal)) (r : Fin 50000) :
    invDeg ei (ix2 r (0 : Fin 1)) = Ideal.div one32 (floorDeg ei (ix1 r)) := by
  unfold invDeg
  generalize floorDeg ei = dm
  rw [shapeCast_apply _ _ (ix2 r (0 : Fin 1)) (ix1 r) (by rw [Shape.rowMajor_val_one, Shape.rowMajor_val_two]; show r.val = r.val * 1 + 0; omega),
    divf_at, ones_at]

end Cert.Sage

end
-- ==== Proof.Entry.lean ====
/-
  What each of the three layer launches finds in its operand arrays when it is entered.

  Before every launch the host forms, from the edge list of that layer, the neighbour sums of the current node
  features and the column of reciprocals of the floored in-degrees; the current features are the program's first
  argument for the first launch and the previous launch's output array afterwards; the two weight matrices and the
  bias are arguments of the program, which nothing writes.
-/
import proofs.«173595_j60258391163614_2_alg».proof.Proof.Gen.KernelIdeal.Frame
import proofs.«173595_j60258391163614_2_alg».proof.Proof.HostFns
import Idealize.ShloMosaic.Lib.StableHlo.Run
import Idealize.ShloMosaic.PureOps.Ideal.Laws

set_option maxRecDepth 16384

noncomputable section

namespace Cert.Sage.Kernel

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ) (ρ : Dev nD → PrngReg)

/-! ## What the host operations leave alone -/

/-- The host operations before the first launch write only their own results: any other array keeps its contents. -/
theorem host0_keeps (V : Valuation τ sig (Elt Ideal)) (b : Ref sig .tc)
    (hb : ∀ r ∈ ([main_v0, main_v1, main_c, main_v2, main_v3, main_c_0, main_v4, main_v5, main_v6, main_v7, main_v8, main_v9, main_v10, main_cst, main_v11, main_v12, main_v13, main_cst_1, main_v14, main_v15, main_v16, main_cst_2, main_v17, main_v18, main_v19, main_cst_3, main_v20, main_v21, main_cst_4, main_v22, main_v23, main_v24] : List (Ref sig .tc)), b ≠ r) :
    StableHlo.after hostOps0 V (Proc.devRef .tc b) = V (Proc.devRef .tc b) := by
  refine StableHlo.after_of_forall_not_mem (b := Proc.devRef .tc b) _ _ (List.forall_iff_forall_mem.mp ?_)
  simp only [hostOps0, List.Forall, StableHlo.nullary_writes, StableHlo.unary_writes, StableHlo.binary_writes,
    StableHlo.ternary_writes, StableHlo.reshape_writes, Finset.mem_singleton]
  repeat' apply And.intro
  all_goals exact StableHlo.devRef_ne_of_ne (hb _ (by decide))

/-- The host operations between the first and the second launch write only their own results: any other array keeps its contents. -/
theorem host1_keeps (V : Valuation τ sig (Elt Ideal)) (b : Ref sig .tc)
    (hb : ∀ r ∈ ([main_v26, main_v27, main_c_5, main_v28, main_v29, main_c_6, main_v30, main_v31, main_v32, main_v33, main_v34, main_v35, main_v36, main_cst_7, main_v37, main_v38, main_v39, main_cst_8, main_v40, main_v41, main_v42, main_cst_9, main_v43, main_v44, main_v45, main_cst_10, main_v46, main_v47, main_cst_11, main_v48, main_v49, main_v50] : List (Ref sig .tc)), b ≠ r) :
    StableHlo.after hostOps1 V (Proc.devRef .tc b) = V (Proc.devRef .tc b) := by
  refine StableHlo.after_of_forall_not_mem (b := Proc.devRef .tc b) _ _ (List.forall_iff_forall_mem.mp ?_)
  simp only [hostOps1, List.Forall, StableHlo.nullary_writes, StableHlo.unary_writes, StableHlo.binary_writes,
    StableHlo.ternary_writes, StableHlo.reshape_writes, Finset.mem_singleton]
  repeat' apply And.intro
  all_goals exact StableHlo.devRef_ne_of_ne (hb _ (by decide))

/-- The host operations between the second and the third launch write only their own results: any other array keeps its contents. -/
theorem host2_keeps (V : Valuation τ sig (Elt Ideal)) (b : Ref sig .tc)
    (hb : ∀ r ∈ ([main_v52, main_v53, main_c_12, main_v54, main_v55, main_c_13, main_v56, main_v57, main_v58, main_v59, main_v60, main_v61, main_v62, main_cst_14, main_v63, main_v64, main_v65, main_cst_15, main_v66, main_v67, main_v68, main_cst_16, main_v69, main_v70, main_v71, main_cst_17, main_v72, main_v73, main_cst_18, main_v74, main_v75, main_v76] : List (Ref sig .tc)), b ≠ r) :
    StableHlo.after hostOps2 V (Proc.devRef .tc b) = V (Proc.devRef .tc b) := by
  refine StableHlo.after_of_forall_not_mem (b := Proc.devRef .tc b) _ _ (List.forall_iff_forall_mem.mp ?_)
  simp only [hostOps2, List.Forall, StableHlo.nullary_writes, StableHlo.unary_writes, StableHlo.binary_writes,
    StableHlo.ternary_writes, StableHlo.reshape_writes, Finset.mem_singleton]
  repeat' apply And.intro
  all_goals exact StableHlo.devRef_ne_of_ne (hb _ (by decide))

/-! ## The program's arguments at the later boundaries

No launch has an argument of a later layer among its arrays and no host operation writes one, so at the exit of the
first and of the second launch these arguments still hold what the program was launched with. -/

theorem W2_arg2 (c : Dev nD) : W2 m ρ c (Proc.devRef .tc main_arg2) = m ((c : Thread nD τ).loc main_arg2) :=
  (W2_of_ne m ρ c main_arg2 (by decide)).trans (host0_keeps (W0 m ρ c) main_arg2 (by decide))
theorem W2_arg3 (c : Dev nD) : W2 m ρ c (Proc.devRef .tc main_arg3) = m ((c : Thread nD τ).loc main_arg3) :=
  (W2_of_ne m ρ c main_arg3 (by decide)).trans (host0_keeps (W0 m ρ c) main_arg3 (by decide))
theorem W2_arg7 (c : Dev nD) : W2 m ρ c (Proc.devRef .tc main_arg7) = m ((c : Thread nD τ).loc main_arg7) :=
  (W2_of_ne m ρ c main_arg7 (by decide)).trans (host0_keeps (W0 m ρ c) main_arg7 (by decide))
theorem W2_arg8 (c : Dev nD) : W2 m ρ c (Proc.devRef .tc main_arg8) = m ((c : Thread nD τ).loc main_arg8) :=
  (W2_of_ne m ρ c main_arg8 (by decide)).trans (host0_keeps (W0 m ρ c) main_arg8 (by decide))
theorem W2_arg9 (c : Dev nD) : W2 m ρ c (Proc.devRef .tc main_arg9) = m ((c : Thread nD τ).loc main_arg9) :=
  (W2_of_ne m ρ c main_arg9 (by decide)).trans (host0_keeps (W0 m ρ c) main_arg9 (by decide))
theorem W2_arg10 (c : Dev nD) : W2 m ρ c (Proc.devRef .tc main_arg10) = m ((c : Thread nD τ).loc main_arg10) :=
  (W2_of_ne m ρ c main_arg10 (by decide)).trans (host0_keeps (W0 m ρ c) main_arg10 (by decide))
theorem W2_arg11 (c : Dev nD) : W2 m ρ c (Proc.devRef .tc main_arg11) = m ((c : Thread nD τ).loc main_arg11) :=
  (W2_of_ne m ρ c main_arg11 (by decide)).trans (host0_keeps (W0 m ρ c) main_arg11 (by decide))
theorem W2_arg12 (c : Dev nD) : W2 m ρ c (Proc.devRef .tc main_arg12) = m ((c : Thread nD τ).loc main_arg12) :=
  (W2_of_ne m ρ c main_arg12 (by decide)).trans (host0_keeps (W0 m ρ c) main_arg12 (by decide))

theorem W4_arg3 (c : Dev nD) : W4 m ρ c (Proc.devRef .tc main_arg3) = m ((c : Thread nD τ).loc main_arg3) :=
  (W4_of_ne m ρ c main_arg3 (by decide)).trans ((host1_keeps (W2 m ρ c) main_arg3 (by decide)).trans (W2_arg3 m ρ c))
theorem W4_arg10 (c : Dev nD) : W4 m ρ c (Proc.devRef .tc main_arg10) = m ((c : Thread nD τ).loc main_arg10) :=
  (W4_of_ne m ρ c main_arg10 (by decide)).trans ((host1_keeps (W2 m ρ c) main_arg10 (by decide)).trans (W2_arg10 m ρ c))
theorem W4_arg11 (c : Dev nD) : W4 m ρ c (Proc.devRef .tc main_arg11) = m ((c : Thread nD τ).loc main_arg11) :=
  (W4_of_ne m ρ c main_arg11 (by decide)).trans ((host1_keeps (W2 m ρ c) main_arg11 (by decide)).trans (W2_arg11 m ρ c))
theorem W4_arg12 (c : Dev nD) : W4 m ρ c (Proc.devRef .tc main_arg12) = m ((c : Thread nD τ).loc main_arg12) :=
  (W4_of_ne m ρ c main_arg12 (by decide)).trans ((host1_keeps (W2 m ρ c) main_arg12 (by decide)).trans (W2_arg12 m ρ c))

/-! ## The first launch -/

/-- The node's own features are the program's first argument. -/
theorem entry0_feat (c : Dev nD) : V1 m ρ c main_arg0 = m ((c : Thread nD τ).loc main_arg0) :=
  host0_keeps (W0 m ρ c) main_arg0 (by decide)

/-- The two weight matrices and the bias are the program's arguments. -/
theorem entry0_wl (c : Dev nD) : V1 m ρ c main_arg4 = m ((c : Thread nD τ).loc main_arg4) :=
  host0_keeps (W0 m ρ c) main_arg4 (by decide)
theorem entry0_wr (c : Dev nD) : V1 m ρ c main_arg5 = m ((c : Thread nD τ).loc main_arg5) :=
  host0_keeps (W0 m ρ c) main_arg5 (by decide)
theorem entry0_b (c : Dev nD) : V1 m ρ c main_arg6 = m ((c : Thread nD τ).loc main_arg6) :=
  host0_keeps (W0 m ρ c) main_arg6 (by decide)

/-- The neighbour sums of the program's node features along the first edge list. -/
theorem entry0_agg (c : Dev nD) :
    (V1 m ρ c main_v13 : S50000x128.Idx → EReal) = Cert.Sage.nbrSum (m ((c : Thread nD τ).loc main_arg0)) (m ((c : Thread nD τ).loc main_arg1)) := by
  show StableHlo.after hostOps0 (W0 m ρ c) (Proc.devRef .tc main_v13) = _
  after_results
  rfl

/-- The reciprocals of the floored in-degrees of the first edge list. -/
theorem entry0_inv (c : Dev nD) :
    (V1 m ρ c main_v24 : S50000x1.Idx → EReal) = Cert.Sage.invDeg (m ((c : Thread nD τ).loc main_arg1)) := by
  show StableHlo.after hostOps0 (W0 m ρ c) (Proc.devRef .tc main_v24) = _
  after_results
  rfl

/-! ## The second launch -/

/-- The node's own features are the first launch's output array. -/
theorem entry1_feat (c : Dev nD) : V3 m ρ c main_v25 = W2 m ρ c (Proc.devRef .tc main_v25) :=
  host1_keeps (W2 m ρ c) main_v25 (by decide)

/-- The neighbour sums of the first launch's output along the second edge list. -/
theorem entry1_agg (c : Dev nD) :
    (V3 m ρ c main_v39 : S50000x128.Idx → EReal)
      = Cert.Sage.nbrSum (W2 m ρ c (Proc.devRef .tc main_v25)) (m ((c : Thread nD τ).loc main_arg2)) := by
  show StableHlo.after hostOps1 (W2 m ρ c) (Proc.devRef .tc main_v39) = _
  after_results
  rw [W2_arg2 m ρ c]
  rfl

/-- The reciprocals of the floored in-degrees of the second edge list. -/
theorem entry1_inv (c : Dev nD) :
    (V3 m ρ c main_v50 : S50000x1.Idx → EReal) = Cert.Sage.invDeg (m ((c : Thread nD τ).loc main_arg2)) := by
  show StableHlo.after hostOps1 (W2 m ρ c) (Proc.devRef .tc main_v50) = _
  after_results
  rw [W2_arg2 m ρ c]
  rfl

/-- The two weight matrices and the bias are the program's arguments. -/
theorem entry1_wl (c : Dev nD) : V3 m ρ c main_arg7 = m ((c : Thread nD τ).loc main_arg7) :=
  (host1_keeps (W2 m ρ c) main_arg7 (by decide)).trans (W2_arg7 m ρ c)
theorem entry1_wr (c : Dev nD) : V3 m ρ c main_arg8 = m ((c : Thread nD τ).loc main_arg8) :=
  (host1_keeps (W2 m ρ c) main_arg8 (by decide)).trans (W2_arg8 m ρ c)
theorem entry1_b (c : Dev nD) : V3 m ρ c main_arg9 = m ((c : Thread nD τ).loc main_arg9) :=
  (host1_keeps (W2 m ρ c) main_arg9 (by decide)).trans (W2_arg9 m ρ c)

/-! ## The third launch -/

/-- The node's own features are the second launch's output array. -/
theorem entry2_feat (c : Dev nD) : V5 m ρ c main_v51 = W4 m ρ c (Proc.devRef .tc main_v51) :=
  host2_keeps (W4 m ρ c) main_v51 (by decide)

/-- The neighbour sums of the second launch's output along the third edge list. -/
theorem entry2_agg (c : Dev nD) :
    (V5 m ρ c main_v65 : S50000x128.Idx → EReal)
      = Cert.Sage.nbrSum (W4 m ρ c (Proc.devRef .tc main_v51)) (m ((c : Thread nD τ).loc main_arg3)) := by
  show StableHlo.after hostOps2 (W4 m ρ c) (Proc.devRef .tc main_v65) = _
  after_results
  rw [W4_arg3 m ρ c]
  rfl

/-- The reciprocals of the floored in-degrees of the third edge list. -/
theorem entry2_inv (c : Dev nD) :
    (V5 m ρ c main_v76 : S50000x1.Idx → EReal) = Cert.Sage.invDeg (m ((c : Thread nD τ).loc main_arg3)) := by
  show StableHlo.after hostOps2 (W4 m ρ c) (Proc.devRef .tc main_v76) = _
  after_results
  rw [W4_arg3 m ρ c]
  rfl

/-- The two weight matrices and the bias are the program's arguments. -/
theorem entry2_wl (c : Dev nD) : V5 m ρ c main_arg10 = m ((c : Thread nD τ).loc main_arg10) :=
  (host2_keeps (W4 m ρ c) main_arg10 (by decide)).trans (W4_arg10 m ρ c)
theorem entry2_wr (c : Dev nD) : V5 m ρ c main_arg11 = m ((c : Thread nD τ).loc main_arg11) :=
  (host2_keeps (W4 m ρ c) main_arg11 (by decide)).trans (W4_arg11 m ρ c)
theorem entry2_b (c : Dev nD) : V5 m ρ c main_arg12 = m ((c : Thread nD τ).loc main_arg12) :=
  (host2_keeps (W4 m ρ c) main_arg12 (by decide)).trans (W4_arg12 m ρ c)

end Cert.Sage.Kernel

end
-- ==== Proof.Net.lean ====
/-
  The whole network, the two ways, and their equality.

  Both programs run three layers. Between layers both form, with the same host operations, the neighbour sums of the
  current features and the in-degree floored at one; they differ only inside a layer: the reference divides the
  neighbour sum by the floored in-degree and then contracts (`pre128`, `pre64` of `RefLayer.lean`), the kernel
  contracts and then scales by the reciprocal column (`layer0`, `layer1`, `layer2` of `Layers.lean`). Layer by layer
  the two arrays are equal — at every node and output feature by the law of `Layer.lean`, the divisor being a maximum
  with one and the factor its reciprocal — so the compositions are equal, whatever the neighbour sums are. The
  reference's own result term is this composition of its operations.
-/
import proofs.«173595_j60258391163614_2_alg».proof.Proof.HostFns
import proofs.«173595_j60258391163614_2_alg».proof.Proof.Layers
import proofs.«173595_j60258391163614_2_alg».proof.Proof.RefLayer

noncomputable section

namespace Cert.Sage.Ref

open Cert.ReferenceIdeal Idealize.ShloMosaic Idealize.ShloMosaic.ValueIdx Cert.Sage
open Cert.ReferenceIdeal.Facts₀
open Idealize.ShloMosaic.TcCoe Idealize.SL.Sem

/-- An edge list: two rows of 800000 node numbers. -/
abbrev Edges := (⟨S2x800000, .i32⟩ : BufTy).Contents (Elt Ideal)

/-- The reference's activation: the maximum with the array of zeros. -/
def relu128 (y : FVec Ideal S50000x128 .f32) : FVec Ideal S50000x128 .f32 :=
  maximumf y (broadcastInDim S50000x128 ![] bcast_S_S50000x128 (constant (F := Ideal) S_ .f32 0x00000000#32))

/-- The activation at an entry: the maximum with the pattern of `0.0`. -/
theorem relu128_apply (y : FVec Ideal S50000x128 .f32) (i : S50000x128.Idx) :
    relu128 y i = max (y i) (Ideal.ofBits .f32 0x00000000#32) := by
  unfold relu128
  rw [maximumf_apply, zeros128_apply]

/-- The three layers composed, the reference's way. -/
def refNet (x : FVec Ideal S50000x128 .f32) (e1 e2 e3 : Edges) (w4 w5 : FVec Ideal S128x128 .f32) (b6 : FVec Ideal S128 .f32)
    (w7 w8 : FVec Ideal S128x128 .f32) (b9 : FVec Ideal S128 .f32) (w10 w11 : FVec Ideal S128x64 .f32) (b12 : FVec Ideal S64 .f32) : FVec Ideal S50000x64 .f32 :=
  let h1 := relu128 (pre128 (nbrSum x e1) x (floorDeg e1) w4 w5 b6)
  let h2 := addf (relu128 (pre128 (nbrSum h1 e2) h1 (floorDeg e2) w7 w8 b9)) h1
  pre64 (nbrSum h2 e3) h2 (floorDeg e3) w10 w11 b12

/-- The three layers composed, the kernel's way. -/
def kerNet (x : FVec Ideal S50000x128 .f32) (e1 e2 e3 : Edges) (w4 w5 : FVec Ideal S128x128 .f32) (b6 : FVec Ideal S128 .f32)
    (w7 w8 : FVec Ideal S128x128 .f32) (b9 : FVec Ideal S128 .f32) (w10 w11 : FVec Ideal S128x64 .f32) (b12 : FVec Ideal S64 .f32) : FVec Ideal S50000x64 .f32 :=
  let h1 := layer0 (nbrSum x e1) x (invDeg e1) w4 w5 b6
  let h2 := layer1 (nbrSum h1 e2) h1 (invDeg e2) w7 w8 b9
  layer2 (nbrSum h2 e3) h2 (invDeg e3) w10 w11 b12

/-- At node `r` the contract-then-scale form with the reciprocal column is the divide-then-contract form with the floored
    in-degree: the divisor is a maximum with one, the factor its reciprocal. -/
theorem scaled_eq_divided {D : ℕ} (agg x : FVec Ideal S50000x128 .f32) (e : Edges)
    (wl wr : (⟨2, ![128, D]⟩ : Shape).Idx → EReal) (b : (⟨1, ![D]⟩ : Shape).Idx → EReal) (r : Fin 50000) (j : Fin D) :
    scaledAfter agg x (invDeg e) wl wr b r j = dividedBefore agg x (floorDeg e) wl wr b r j :=
  scaledAfter_eq_dividedBefore agg x (invDeg e) (floorDeg e) wl wr b r j (inDeg e (ix1 r)) (floorDeg_apply e r) (invDeg_apply e r)

/-- The first layer: the kernel's array is the reference's. -/
theorem bridge0 (agg x : FVec Ideal S50000x128 .f32) (e : Edges) (wl wr : FVec Ideal S128x128 .f32) (b : FVec Ideal S128 .f32) :
    layer0 agg x (invDeg e) wl wr b = relu128 (pre128 agg x (floorDeg e) wl wr b) := by
  funext i
  obtain ⟨r, j, rfl⟩ : ∃ (r : Fin 50000) (j : Fin 128), i = ix2 r j := ⟨i 0, i 1, eq_ix2 i⟩
  rw [relu128_apply, pre128_apply, ← scaled_eq_divided]
  rfl

/-- The second layer: the kernel's array is the reference's, the node's own features added back on both sides. -/
theorem bridge1 (agg x : FVec Ideal S50000x128 .f32) (e : Edges) (wl wr : FVec Ideal S128x128 .f32) (b : FVec Ideal S128 .f32) :
    layer1 agg x (invDeg e) wl wr b = addf (relu128 (pre128 agg x (floorDeg e) wl wr b)) x := by
  funext i
  obtain ⟨r, j, rfl⟩ : ∃ (r : Fin 50000) (j : Fin 128), i = ix2 r j := ⟨i 0, i 1, eq_ix2 i⟩
  rw [addf_apply, relu128_apply, pre128_apply, ← scaled_eq_divided]
  rfl

/-- The third layer: the kernel's array is the reference's. -/
theorem bridge2 (agg x : FVec Ideal S50000x128 .f32) (e : Edges) (wl wr : FVec Ideal S128x64 .f32) (b : FVec Ideal S64 .f32) :
    layer2 agg x (invDeg e) wl wr b = pre64 agg x (floorDeg e) wl wr b := by
  funext i
  obtain ⟨r, j, rfl⟩ : ∃ (r : Fin 50000) (j : Fin 64), i = ix2 r j := ⟨i 0, i 1, eq_ix2 i⟩
  rw [pre64_apply, ← scaled_eq_divided]
  rfl

/-- The two compositions are one array: layer by layer the inputs of the next layer are equal. -/
theorem kerNet_eq_refNet (x : FVec Ideal S50000x128 .f32) (e1 e2 e3 : Edges) (w4 w5 : FVec Ideal S128x128 .f32) (b6 : FVec Ideal S128 .f32)
    (w7 w8 : FVec Ideal S128x128 .f32) (b9 : FVec Ideal S128 .f32) (w10 w11 : FVec Ideal S128x64 .f32) (b12 : FVec Ideal S64 .f32) :
    kerNet x e1 e2 e3 w4 w5 b6 w7 w8 b9 w10 w11 b12 = refNet x e1 e2 e3 w4 w5 b6 w7 w8 b9 w10 w11 b12 := by
  unfold kerNet refNet
  dsimp only
  rw [bridge0, bridge1, bridge2]

/-! ## The reference's result term

The reference's program is its operations composed; stage by stage the composition is the layer term of the stage's
inputs: the same operations applied to the same operands. -/

/-- The reference's first hidden array is its first layer of the input features. -/
theorem stage1 (x : FVec Ideal S50000x128 .f32) (e1 : Edges) (w4 w5 : FVec Ideal S128x128 .f32) (b6 : FVec Ideal S128 .f32) :
    Cert.ReferenceIdeal.Read.val_main_v31 (F := Ideal) x e1 w4 w5 b6 = relu128 (pre128 (nbrSum x e1) x (floorDeg e1) w4 w5 b6) := rfl

/-- The reference's second hidden array is its second layer of the first hidden array, that array added back. -/
theorem stage2 (x : FVec Ideal S50000x128 .f32) (e1 e2 : Edges) (w4 w5 : FVec Ideal S128x128 .f32) (b6 : FVec Ideal S128 .f32)
    (w7 w8 : FVec Ideal S128x128 .f32) (b9 : FVec Ideal S128 .f32) :
    Cert.ReferenceIdeal.Read.val_main_v64 (F := Ideal) x e1 e2 w4 w5 b6 w7 w8 b9
      = addf (relu128 (pre128 (nbrSum (Cert.ReferenceIdeal.Read.val_main_v31 (F := Ideal) x e1 w4 w5 b6) e2)
          (Cert.ReferenceIdeal.Read.val_main_v31 (F := Ideal) x e1 w4 w5 b6) (floorDeg e2) w7 w8 b9))
        (Cert.ReferenceIdeal.Read.val_main_v31 (F := Ideal) x e1 w4 w5 b6) := rfl

/-- The reference's result is its third layer of the second hidden array. -/
theorem stage3 (x : FVec Ideal S50000x128 .f32) (e1 e2 e3 : Edges) (w4 w5 : FVec Ideal S128x128 .f32) (b6 : FVec Ideal S128 .f32)
    (w7 w8 : FVec Ideal S128x128 .f32) (b9 : FVec Ideal S128 .f32) (w10 w11 : FVec Ideal S128x64 .f32) (b12 : FVec Ideal S64 .f32) :
    Cert.ReferenceIdeal.Read.val_main_v95 (F := Ideal) x e1 e2 e3 w4 w5 b6 w7 w8 b9 w10 w11 b12
      = pre64 (nbrSum (Cert.ReferenceIdeal.Read.val_main_v64 (F := Ideal) x e1 e2 w4 w5 b6 w7 w8 b9) e3)
          (Cert.ReferenceIdeal.Read.val_main_v64 (F := Ideal) x e1 e2 w4 w5 b6 w7 w8 b9) (floorDeg e3) w10 w11 b12 := rfl

/-- The reference's last stage, of any arguments, is the reference's composition of the three layers. -/
theorem stages_eq_refNet (x : FVec Ideal S50000x128 .f32) (e1 e2 e3 : Edges) (w4 w5 : FVec Ideal S128x128 .f32) (b6 : FVec Ideal S128 .f32)
    (w7 w8 : FVec Ideal S128x128 .f32) (b9 : FVec Ideal S128 .f32) (w10 w11 : FVec Ideal S128x64 .f32) (b12 : FVec Ideal S64 .f32) :
    Cert.ReferenceIdeal.Read.val_main_v95 (F := Ideal) x e1 e2 e3 w4 w5 b6 w7 w8 b9 w10 w11 b12 = refNet x e1 e2 e3 w4 w5 b6 w7 w8 b9 w10 w11 b12 := by
  rw [stage3, stage2, stage1]
  rfl

/-- The reference's result is the reference's composition of the three layers, of its thirteen arguments. -/
theorem ref_result (m : (ℓ : Loc nD τ sig) → Buf (Elt Ideal) ℓ) (c : Dev nD) :
    Cert.ReferenceIdeal.Value.res_main_v95 (F := Ideal) m c
      = refNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (Cert.ReferenceIdeal.Read.val_main_v95_eq (F := Ideal) m c).trans (stages_eq_refNet ..)

end Cert.Sage.Ref

end
-- ==== Proof.KernelValue.lean ====
/-
  What the idealized kernel's result buffer holds: the three layers composed, the kernel's way.

  The third launch's output array is `layer2` of the arrays that launch found; its feature operand is the
  second launch's output array, which is `layer1` of what the second launch found, whose feature operand in
  turn is the first launch's output array, `layer0` of the program's arguments. The neighbour sums and the
  columns of reciprocals each launch finds were computed by the host operations just before it, from the
  features current at that point and from the program's edge lists.
-/
import proofs.«173595_j60258391163614_2_alg».proof.Proof.Region0
import proofs.«173595_j60258391163614_2_alg».proof.Proof.Region1
import proofs.«173595_j60258391163614_2_alg».proof.Proof.Region2
import proofs.«173595_j60258391163614_2_alg».proof.Proof.Entry
import proofs.«173595_j60258391163614_2_alg».proof.Proof.Net

set_option maxRecDepth 16384

noncomputable section

namespace Cert.Sage.Kernel

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- After the first launch its output array holds the first layer of the program's arguments. -/
theorem after_first (c : Dev nD) :
    W2 m ρ c (Proc.devRef .tc main_v25)
      = Cert.Sage.layer0 (Cert.Sage.nbrSum (m ((c.tc : Thread nD τ).loc main_arg0)) (m ((c.tc : Thread nD τ).loc main_arg1))) (m ((c.tc : Thread nD τ).loc main_arg0)) (Cert.Sage.invDeg (m ((c.tc : Thread nD τ).loc main_arg1))) (m ((c.tc : Thread nD τ).loc main_arg4)) (m ((c.tc : Thread nD τ).loc main_arg5)) (m ((c.tc : Thread nD τ).loc main_arg6)) := by
  have h := (W2_arr m ρ c 6).trans (Cert.Sage.final0 (V1 m ρ) c)
  rw [entry0_agg, entry0_feat, entry0_inv, entry0_wl, entry0_wr, entry0_b] at h
  exact h

/-- After the second launch its output array holds the second layer of the first launch's output. -/
theorem after_second (c : Dev nD) :
    W4 m ρ c (Proc.devRef .tc main_v51)
      = Cert.Sage.layer1 (Cert.Sage.nbrSum (W2 m ρ c (Proc.devRef .tc main_v25)) (m ((c.tc : Thread nD τ).loc main_arg2))) (W2 m ρ c (Proc.devRef .tc main_v25))
          (Cert.Sage.invDeg (m ((c.tc : Thread nD τ).loc main_arg2))) (m ((c.tc : Thread nD τ).loc main_arg7)) (m ((c.tc : Thread nD τ).loc main_arg8)) (m ((c.tc : Thread nD τ).loc main_arg9)) := by
  have h := (W4_arr m ρ c 6).trans (Cert.Sage.final1 (V3 m ρ) c)
  rw [entry1_agg, entry1_feat, entry1_inv, entry1_wl, entry1_wr, entry1_b] at h
  exact h

/-- After the third launch its output array holds the third layer of the second launch's output. -/
theorem after_third (c : Dev nD) :
    W6 m ρ c (Proc.devRef .tc main_v77)
      = Cert.Sage.layer2 (Cert.Sage.nbrSum (W4 m ρ c (Proc.devRef .tc main_v51)) (m ((c.tc : Thread nD τ).loc main_arg3))) (W4 m ρ c (Proc.devRef .tc main_v51))
          (Cert.Sage.invDeg (m ((c.tc : Thread nD τ).loc main_arg3))) (m ((c.tc : Thread nD τ).loc main_arg10)) (m ((c.tc : Thread nD τ).loc main_arg11)) (m ((c.tc : Thread nD τ).loc main_arg12)) := by
  have h := (W6_arr m ρ c 6).trans (Cert.Sage.final2 (V5 m ρ) c)
  rw [entry2_agg, entry2_feat, entry2_inv, entry2_wl, entry2_wr, entry2_b] at h
  exact h

/-- The result buffer's final contents: the kernel's network of the program's arguments. -/
theorem result_eq (c : Dev nD) :
    W6 m ρ c (Proc.devRef .tc main_v77)
      = Cert.Sage.Ref.kerNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [after_third, after_second, after_first]
  rfl

end Cert.Sage.Kernel

end
-- ==== Proof.lean ====
/-
  A three-layer graph network (mean aggregation over incoming edges, two weight matrices and a bias per layer; the
  first two layers floored at zero, the second with a skip connection) computed two ways, and equal on the
  extended reals.

  Both programs form, on the host and with the same operations, each layer's neighbour sums and in-degrees
  floored at one. The reference then divides the neighbour sums by the degree, multiplies by the first weight
  matrix, adds the bias and the product of the features with the second weight matrix, on the whole array. The
  kernel multiplies the UNDIVIDED neighbour sums by the first weight matrix in blocks of 5000 nodes and scales
  each row of the product by the reciprocal of the node's degree, then adds the other product and the bias.
  The reciprocal of a maximum with one is a finite real in [0, 1], and such a factor distributes over every sum
  of extended reals; so the two arrangements of a layer agree at every node and feature with no finiteness
  assumed (`Law.lean`, `Layer.lean`), and layer by layer the two networks are one function of the arguments.

  The kernel's side: its run with the result buffer's final contents named (`KernelRun.lean`), each launch's
  output array as one function of the arrays it found (`Region0/1/2.lean` over `Payload.lean`), what each launch
  found (`Entry.lean`), composed (`KernelValue.lean`). The reference's side: its generated run, its layer term read
  at an entry (`RefLayer.lean`), the networks and their equality (`Net.lean`). The ideal pass rewrote nothing, so
  the kernel's idealization is its own text read on the extended reals.
-/
import proofs.«173595_j60258391163614_2_alg».proof.Defs
import proofs.«173595_j60258391163614_2_alg».proof.Proof.Gen.Kernel
import proofs.«173595_j60258391163614_2_alg».proof.Proof.Gen.Kernel.Skeleton
import proofs.«173595_j60258391163614_2_alg».proof.Proof.Gen.Kernel.Launch
import proofs.«173595_j60258391163614_2_alg».proof.Proof.Gen.Kernel.Points
import proofs.«173595_j60258391163614_2_alg».proof.Proof.Gen.Kernel.Frame
import proofs.«173595_j60258391163614_2_alg».proof.Proof.Gen.KernelIdeal
import proofs.«173595_j60258391163614_2_alg».proof.Proof.Gen.KernelIdeal.Skeleton
import proofs.«173595_j60258391163614_2_alg».proof.Proof.Gen.KernelIdeal.Launch
import proofs.«173595_j60258391163614_2_alg».proof.Proof.Gen.KernelIdeal.Points
import proofs.«173595_j60258391163614_2_alg».proof.Proof.Gen.KernelIdeal.Frame
import proofs.«173595_j60258391163614_2_alg».proof.Proof.Gen.ReferenceIdeal
import proofs.«173595_j60258391163614_2_alg».proof.Proof.Gen.ReferenceIdeal.Run
import proofs.«173595_j60258391163614_2_alg».proof.Proof.Gen.ReferenceIdeal.Read
import proofs.«173595_j60258391163614_2_alg».proof.Proof.Gen.Pre_finite_inputs
import proofs.«173595_j60258391163614_2_alg».proof.Proof.KernelRun
import proofs.«173595_j60258391163614_2_alg».proof.Proof.KernelValue
import proofs.«173595_j60258391163614_2_alg».proof.Proof.Net
import Idealize.ShloMosaic.Adequacy
import Idealize.ShloMosaic.Init

noncomputable section

namespace Cert.Proof

open Idealize.ShloMosaic Idealize.ShloMosaic.TcCoe Idealize.SL.Sem

/-- The three programs terminate without a fault and leave their arguments as launched. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- On the extended reals the kernel's result buffer ends at the kernel's network of the arguments, the
    reference's at the reference's network of arguments that agree with them: one function. -/
theorem algebraic : Cert.algebraic_KernelIdeal_ReferenceIdeal := by
  intro m ρ m' ρ' _ hagree
  refine ⟨fun c => Cert.Sage.Ref.kerNet (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.Sage.Kernel.result_eq m ρ c), (h c).2⟩)
      (Cert.Sage.Kernel.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12⟩ := hagree c
    show _ = Cert.Sage.Ref.kerNet _ _ _ _ _ _ _ _ _ _ _ _ _
    rw [Cert.Sage.Ref.ref_result, Cert.Sage.Ref.kerNet_eq_refNet, a0, a1, a2, a3, a4, a5, a6, a7, a8, a9, a10, a11, a12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
